-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S3200000 : Shape := ⟨1, ![3200000]⟩
abbrev S2x2000000 : Shape := ⟨2, ![2, 2000000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg7 : FVec F S64x32 .f32) (main_arg8 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg7
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg8
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  main_v28

def fn {F : FTy → Type} [FloatOps F] (main_arg0 : FVec F S100000x256 .f32) (main_arg1 : IVec S3200000 32) (main_arg2 : IVec S3200000 32) (main_arg3 : FVec F S3200000 .f32) (main_arg4 : IVec S2x2000000 32) (main_arg5 : FVec F S256x64 .f32) (main_arg6 : FVec F S64 .f32) (main_arg7 : FVec F S64x32 .f32) (main_arg8 : FVec F S32 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S3200000 .f32 := Host.absf main_arg3
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S256x64 .f32 := Host.absf main_arg5
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg6
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg7 main_arg8 main_v13 main_v16
-- ==== Kernel.lean ====
abbrev S100000x256 : Shape := ⟨2, ![100000, 256]⟩
abbrev S3200000 : Shape := ⟨1, ![3200000]⟩
abbrev S2x2000000 : Shape := ⟨2, ![2, 2000000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S100000x64 : Shape := ⟨2, ![100000, 64]⟩
abbrev S5000x256 : Shape := ⟨2, ![5000, 256]⟩
abbrev S5000x64 : Shape := ⟨2, ![5000, 64]⟩
abbrev S3200000x1 : Shape := ⟨2, ![3200000, 1]⟩
abbrev S_ : Shape := ⟨0, ![]⟩
abbrev S3200000x64 : Shape := ⟨2, ![3200000, 64]⟩
abbrev S1x64 : Shape := ⟨2, ![1, 64]⟩
abbrev S100000x32 : Shape := ⟨2, ![100000, 32]⟩
abbrev S5000x32 : Shape := ⟨2, ![5000, 32]⟩
abbrev S3200000x32 : Shape := ⟨2, ![3200000, 32]⟩
abbrev S1x32 : Shape := ⟨2, ![1, 32]⟩
abbrev S1x2000000 : Shape := ⟨2, ![1, 2000000]⟩
abbrev S2000000 : Shape := ⟨1, ![2000000]⟩
abbrev S2000000x1 : Shape := ⟨2, ![2000000, 1]⟩
abbrev S2000000x32 : Shape := ⟨2, ![2000000, 32]⟩
abbrev S2002944x32 : Shape := ⟨2, ![2002944, 32]⟩
abbrev S2002944 : Shape := ⟨1, ![2002944]⟩
abbrev S4096x32 : Shape := ⟨2, ![4096, 32]⟩
abbrev S4096 : Shape := ⟨1, ![4096]⟩

abbrev nBuf : Space → Nat
  | .hbm => 77
  | .vmem => 26
  | .smem => 0
  | _ => 0

abbrev bufTy : (tb : Table) → Fin (tcTables nBuf tb) → BufTy
  | .hbm, ⟨0, _⟩ => ⟨S100000x256, .f32⟩
  | .hbm, ⟨1, _⟩ => ⟨S3200000, .i32⟩
  | .hbm, ⟨2, _⟩ => ⟨S3200000, .i32⟩
  | .hbm, ⟨3, _⟩ => ⟨S3200000, .f32⟩
  | .hbm, ⟨4, _⟩ => ⟨S2x2000000, .i32⟩
  | .hbm, ⟨5, _⟩ => ⟨S256x64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S100000x64, .f32⟩
  | .hbm, ⟨10, _⟩ => ⟨S3200000x1, .f32⟩
  | .hbm, ⟨11, _⟩ => ⟨S_, .i32⟩
  | .hbm, ⟨12, _⟩ => ⟨S3200000, .i32⟩
  | .hbm, ⟨13, _⟩ => ⟨S3200000, .i1⟩
  | .hbm, ⟨14, _⟩ => ⟨S_, .i32⟩
  | .hbm, ⟨15, _⟩ => ⟨S3200000, .i32⟩
  | .hbm, ⟨16, _⟩ => ⟨S3200000, .i32⟩
  | .hbm, ⟨17, _⟩ => ⟨S3200000, .i32⟩
  | .hbm, ⟨18, _⟩ => ⟨S3200000x1, .i32⟩
  | .hbm, ⟨19, _⟩ => ⟨S3200000x64, .f32⟩
  | .hbm, ⟨20, _⟩ => ⟨S3200000x64, .f32⟩
  | .hbm, ⟨21, _⟩ => ⟨S3200000x64, .f32⟩
  | .hbm, ⟨22, _⟩ => ⟨S_, .f32⟩
  | .hbm, ⟨23, _⟩ => ⟨S100000x64, .f32⟩
  | .hbm, ⟨24, _⟩ => ⟨S3200000x1, .i32⟩
  | .hbm, ⟨25, _⟩ => ⟨S100000x64, .f32⟩
  | .hbm, ⟨26, _⟩ => ⟨S1x64, .f32⟩
  | .hbm, ⟨27, _⟩ => ⟨S100000x64, .f32⟩
  | .hbm, ⟨28, _⟩ => ⟨S100000x32, .f32⟩
  | .hbm, ⟨29, _⟩ => ⟨S3200000x1, .f32⟩
  | .hbm, ⟨30, _⟩ => ⟨S_, .i32⟩
  | .hbm, ⟨31, _⟩ => ⟨S3200000, .i32⟩
  | .hbm, ⟨32, _⟩ => ⟨S3200000, .i1⟩
  | .hbm, ⟨33, _⟩ => ⟨S_, .i32⟩
  | .hbm, ⟨34, _⟩ => ⟨S3200000, .i32⟩
  | .hbm, ⟨35, _⟩ => ⟨S3200000, .i32⟩
  | .hbm, ⟨36, _⟩ => ⟨S3200000, .i32⟩
  | .hbm, ⟨37, _⟩ => ⟨S3200000x1, .i32⟩
  | .hbm, ⟨38, _⟩ => ⟨S3200000x32, .f32⟩
  | .hbm, ⟨39, _⟩ => ⟨S3200000x32, .f32⟩
  | .hbm, ⟨40, _⟩ => ⟨S3200000x32, .f32⟩
  | .hbm, ⟨41, _⟩ => ⟨S_, .f32⟩
  | .hbm, ⟨42, _⟩ => ⟨S100000x32, .f32⟩
  | .hbm, ⟨43, _⟩ => ⟨S3200000x1, .i32⟩
  | .hbm, ⟨44, _⟩ => ⟨S100000x32, .f32⟩
  | .hbm, ⟨45, _⟩ => ⟨S1x32, .f32⟩
  | .hbm, ⟨46, _⟩ => ⟨S100000x32, .f32⟩
  | .hbm, ⟨47, _⟩ => ⟨S1x2000000, .i32⟩
  | .hbm, ⟨48, _⟩ => ⟨S2000000, .i32⟩
  | .hbm, ⟨49, _⟩ => ⟨S1x2000000, .i32⟩
  | .hbm, ⟨50, _⟩ => ⟨S2000000, .i32⟩
  | .hbm, ⟨51, _⟩ => ⟨S_, .i32⟩
  | .hbm, ⟨52, _⟩ => ⟨S2000000, .i32⟩
  | .hbm, ⟨53, _⟩ => ⟨S2000000, .i1⟩
  | .hbm, ⟨54, _⟩ => ⟨S_, .i32⟩
  | .hbm, ⟨55, _⟩ => ⟨S2000000, .i32⟩
  | .hbm, ⟨56, _⟩ => ⟨S2000000, .i32⟩
  | .hbm, ⟨57, _⟩ => ⟨S2000000, .i32⟩
  | .hbm, ⟨58, _⟩ => ⟨S2000000x1, .i32⟩
  | .hbm, ⟨59, _⟩ => ⟨S2000000x32, .f32⟩
  | .hbm, ⟨60, _⟩ => ⟨S_, .i32⟩
  | .hbm, ⟨61, _⟩ => ⟨S2000000, .i32⟩
  | .hbm, ⟨62, _⟩ => ⟨S2000000, .i1⟩
  | .hbm, ⟨63, _⟩ => ⟨S_, .i32⟩
  | .hbm, ⟨64, _⟩ => ⟨S2000000, .i32⟩
  | .hbm, ⟨65, _⟩ => ⟨S2000000, .i32⟩
  | .hbm, ⟨66, _⟩ => ⟨S2000000, .i32⟩
  | .hbm, ⟨67, _⟩ => ⟨S2000000x1, .i32⟩
  | .hbm, ⟨68, _⟩ => ⟨S2000000x32, .f32⟩
  | .hbm, ⟨69, _⟩ => ⟨S_, .i32⟩
  | .hbm, ⟨70, _⟩ => ⟨S_, .f32⟩
  | .hbm, ⟨71, _⟩ => ⟨S2002944x32, .f32⟩
  | .hbm, ⟨72, _⟩ => ⟨S_, .i32⟩
  | .hbm, ⟨73, _⟩ => ⟨S_, .f32⟩
  | .hbm, ⟨74, _⟩ => ⟨S2002944x32, .f32⟩
  | .hbm, ⟨75, _⟩ => ⟨S2002944, .f32⟩
  | .hbm, ⟨76, _⟩ => ⟨S2000000, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S1x32, .f32⟩
  | .local _ .vmem, ⟨18, _⟩ => ⟨S5000x32, .f32⟩
  | .local _ .vmem, ⟨19, _⟩ => ⟨S5000x32, .f32⟩
  | .local _ .vmem, ⟨20, _⟩ => ⟨S4096x32, .f32⟩
  | .local _ .vmem, ⟨21, _⟩ => ⟨S4096x32, .f32⟩
  | .local _ .vmem, ⟨22, _⟩ => ⟨S4096x32, .f32⟩
  | .local _ .vmem, ⟨23, _⟩ => ⟨S4096x32, .f32⟩
  | .local _ .vmem, ⟨24, _⟩ => ⟨S4096, .f32⟩
  | .local _ .vmem, ⟨25, _⟩ => ⟨S4096, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_1 : Ref sig .tc := ⟨.hbm, 30, rfl⟩
abbrev main_v18 : Ref sig .tc := ⟨.hbm, 31, rfl⟩
abbrev main_v19 : Ref sig .tc := ⟨.hbm, 32, rfl⟩
abbrev main_c_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_4 : Ref sig .tc := ⟨.hbm, 51, rfl⟩
abbrev main_v36 : Ref sig .tc := ⟨.hbm, 52, rfl⟩
abbrev main_v37 : Ref sig .tc := ⟨.hbm, 53, rfl⟩
abbrev main_c_5 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_6 : Ref sig .tc := ⟨.hbm, 60, rfl⟩
abbrev main_v43 : Ref sig .tc := ⟨.hbm, 61, rfl⟩
abbrev main_v44 : Ref sig .tc := ⟨.hbm, 62, rfl⟩
abbrev main_c_7 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_8 : Ref sig .tc := ⟨.hbm, 69, rfl⟩
abbrev main_call0_v0 : Ref sig .tc := ⟨.hbm, 70, rfl⟩
abbrev main_v50 : Ref sig .tc := ⟨.hbm, 71, rfl⟩
abbrev main_c_9 : Ref sig .tc := ⟨.hbm, 72, rfl⟩
abbrev main_call1_v0 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg2_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem2_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![489], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 1 → Nat :=
  let arg0 : BitVec 32 := BitVec.ofNat 32 (i 0).val
  let c0_i32 : BitVec 32 := 0#32
  ![arg0.toNat]

abbrev stage4_0 : Fin 2 → Memref sig .tc .vmem S4096x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4096x32 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4096 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  pads_S2000000x32_S2002944x32_029440_000 : S2000000x32.Pads (![0, 0] : Fin 2 → Nat) ![2944, 0] ![0, 0] S2002944x32
  h_S_ : 0 < S_.numel
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  reduces_S4096x32_S4096 : S4096x32.Reduces [1] S4096
  inb_S4096_S4096_0 : ∀ a, (![0] : Fin 1 → Nat) a + S4096.size a ≤ S4096.size a
  h_S4096 : 0 < S4096.numel
  slices_S2002944_S2000000_0 : S2002944.Slices ![0] S2000000
  dot_S5000x256_S256x64_S5000x64_1_0_0_1_n_n_wf : DotDims.WF S5000x256 S256x64 S5000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S5000x64_S64x32_S5000x32_1_0_0_1_n_n_wf : DotDims.WF S5000x64 S64x32 S5000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  gather_S100000x32_S2000000x1_S2000000x32_1_0_n_n_0_1_132_wf : GatherDims.WF S100000x32 S2000000x1 S2000000x32 [1] [0] [] [0] [] 1 ![1, 32]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S100000x32.size a
  hwx2_2 : ∀ i : grid2.Coords, EltTy.bits .f32 = 32 ∨ (Rect.block (s := S100000x32) S5000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x32.size a ≤ S100000x32.size a
  hwx3_2 : ∀ i : grid3.Coords, EltTy.bits .f32 = 32 ∨ (Rect.block (s := S100000x32) S5000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x32.size a ≤ S2002944x32.size a
  hwx4_0 : ∀ i : grid4.Coords, EltTy.bits .f32 = 32 ∨ (Rect.block (s := S2002944x32) S4096x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4096x32.size a ≤ S2002944x32.size a
  hwx4_1 : ∀ i : grid4.Coords, EltTy.bits .f32 = 32 ∨ (Rect.block (s := S2002944x32) S4096x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4096.size a ≤ S2002944.size a
  hwx4_2 : ∀ i : grid4.Coords, EltTy.bits .f32 = 32 ∨ (Rect.block (s := S2002944) S4096.size (cc4_transform_2 i) (hinb4_2 i)).WholeWords (EltTy.packing .f32)

variable [Facts₀]

def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def gather_S100000x32_S2000000x1_S2000000x32_1_0_n_n_0_1_132 : GatherDims S100000x32 S2000000x1 S2000000x32 where
  offsetDims := [1]
  collapsedSliceDims := [0]
  operandBatchingDims := []
  startIndicesBatchingDims := []
  startIndexMap := [0]
  indexVectorDim := 1
  sliceSizes := ![1, 32]
  wf := gather_S100000x32_S2000000x1_S2000000x32_1_0_n_n_0_1_132_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v15) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S5000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v29) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v31) S5000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v50) S4096x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v51) S4096x32.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v52) S4096.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x256 : Shape := ⟨2, ![100000, 256]⟩
abbrev S3200000 : Shape := ⟨1, ![3200000]⟩
abbrev S2x2000000 : Shape := ⟨2, ![2, 2000000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S100000x64 : Shape := ⟨2, ![100000, 64]⟩
abbrev S3200000x1 : Shape := ⟨2, ![3200000, 1]⟩
abbrev S_ : Shape := ⟨0, ![]⟩
abbrev S3200000x64 : Shape := ⟨2, ![3200000, 64]⟩
abbrev S1x64 : Shape := ⟨2, ![1, 64]⟩
abbrev S100000x32 : Shape := ⟨2, ![100000, 32]⟩
abbrev S3200000x32 : Shape := ⟨2, ![3200000, 32]⟩
abbrev S1x32 : Shape := ⟨2, ![1, 32]⟩
abbrev S1x2000000 : Shape := ⟨2, ![1, 2000000]⟩
abbrev S2000000 : Shape := ⟨1, ![2000000]⟩
abbrev S2000000x1 : Shape := ⟨2, ![2000000, 1]⟩
abbrev S2000000x32 : Shape := ⟨2, ![2000000, 32]⟩

abbrev nBuf : Space → Nat
  | .hbm => 77
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S3200000, .i32⟩
  | .hbm, ⟨2, _⟩ => ⟨S3200000, .i32⟩
  | .hbm, ⟨3, _⟩ => ⟨S3200000, .f32⟩
  | .hbm, ⟨4, _⟩ => ⟨S2x2000000, .i32⟩
  | .hbm, ⟨5, _⟩ => ⟨S256x64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S100000x64, .f32⟩
  | .hbm, ⟨10, _⟩ => ⟨S3200000x1, .f32⟩
  | .hbm, ⟨11, _⟩ => ⟨S_, .i32⟩
  | .hbm, ⟨12, _⟩ => ⟨S3200000, .i32⟩
  | .hbm, ⟨13, _⟩ => ⟨S3200000, .i1⟩
  | .hbm, ⟨14, _⟩ => ⟨S_, .i32⟩
  | .hbm, ⟨15, _⟩ => ⟨S3200000, .i32⟩
  | .hbm, ⟨16, _⟩ => ⟨S3200000, .i32⟩
  | .hbm, ⟨17, _⟩ => ⟨S3200000, .i32⟩
  | .hbm, ⟨18, _⟩ => ⟨S3200000x1, .i32⟩
  | .hbm, ⟨19, _⟩ => ⟨S3200000x64, .f32⟩
  | .hbm, ⟨20, _⟩ => ⟨S3200000x64, .f32⟩
  | .hbm, ⟨21, _⟩ => ⟨S3200000x64, .f32⟩
  | .hbm, ⟨22, _⟩ => ⟨S_, .f32⟩
  | .hbm, ⟨23, _⟩ => ⟨S100000x64, .f32⟩
  | .hbm, ⟨24, _⟩ => ⟨S3200000x1, .i32⟩
  | .hbm, ⟨25, _⟩ => ⟨S100000x64, .f32⟩
  | .hbm, ⟨26, _⟩ => ⟨S1x64, .f32⟩
  | .hbm, ⟨27, _⟩ => ⟨S100000x64, .f32⟩
  | .hbm, ⟨28, _⟩ => ⟨S100000x64, .f32⟩
  | .hbm, ⟨29, _⟩ => ⟨S_, .f32⟩
  | .hbm, ⟨30, _⟩ => ⟨S100000x64, .f32⟩
  | .hbm, ⟨31, _⟩ => ⟨S100000x64, .f32⟩
  | .hbm, ⟨32, _⟩ => ⟨S100000x32, .f32⟩
  | .hbm, ⟨33, _⟩ => ⟨S3200000x1, .f32⟩
  | .hbm, ⟨34, _⟩ => ⟨S_, .i32⟩
  | .hbm, ⟨35, _⟩ => ⟨S3200000, .i32⟩
  | .hbm, ⟨36, _⟩ => ⟨S3200000, .i1⟩
  | .hbm, ⟨37, _⟩ => ⟨S_, .i32⟩
  | .hbm, ⟨38, _⟩ => ⟨S3200000, .i32⟩
  | .hbm, ⟨39, _⟩ => ⟨S3200000, .i32⟩
  | .hbm, ⟨40, _⟩ => ⟨S3200000, .i32⟩
  | .hbm, ⟨41, _⟩ => ⟨S3200000x1, .i32⟩
  | .hbm, ⟨42, _⟩ => ⟨S3200000x32, .f32⟩
  | .hbm, ⟨43, _⟩ => ⟨S3200000x32, .f32⟩
  | .hbm, ⟨44, _⟩ => ⟨S3200000x32, .f32⟩
  | .hbm, ⟨45, _⟩ => ⟨S_, .f32⟩
  | .hbm, ⟨46, _⟩ => ⟨S100000x32, .f32⟩
  | .hbm, ⟨47, _⟩ => ⟨S3200000x1, .i32⟩
  | .hbm, ⟨48, _⟩ => ⟨S100000x32, .f32⟩
  | .hbm, ⟨49, _⟩ => ⟨S1x32, .f32⟩
  | .hbm, ⟨50, _⟩ => ⟨S100000x32, .f32⟩
  | .hbm, ⟨51, _⟩ => ⟨S100000x32, .f32⟩
  | .hbm, ⟨52, _⟩ => ⟨S1x2000000, .i32⟩
  | .hbm, ⟨53, _⟩ => ⟨S2000000, .i32⟩
  | .hbm, ⟨54, _⟩ => ⟨S1x2000000, .i32⟩
  | .hbm, ⟨55, _⟩ => ⟨S2000000, .i32⟩
  | .hbm, ⟨56, _⟩ => ⟨S_, .i32⟩
  | .hbm, ⟨57, _⟩ => ⟨S2000000, .i32⟩
  | .hbm, ⟨58, _⟩ => ⟨S2000000, .i1⟩
  | .hbm, ⟨59, _⟩ => ⟨S_, .i32⟩
  | .hbm, ⟨60, _⟩ => ⟨S2000000, .i32⟩
  | .hbm, ⟨61, _⟩ => ⟨S2000000, .i32⟩
  | .hbm, ⟨62, _⟩ => ⟨S2000000, .i32⟩
  | .hbm, ⟨63, _⟩ => ⟨S2000000x1, .i32⟩
  | .hbm, ⟨64, _⟩ => ⟨S2000000x32, .f32⟩
  | .hbm, ⟨65, _⟩ => ⟨S_, .i32⟩
  | .hbm, ⟨66, _⟩ => ⟨S2000000, .i32⟩
  | .hbm, ⟨67, _⟩ => ⟨S2000000, .i1⟩
  | .hbm, ⟨68, _⟩ => ⟨S_, .i32⟩
  | .hbm, ⟨69, _⟩ => ⟨S2000000, .i32⟩
  | .hbm, ⟨70, _⟩ => ⟨S2000000, .i32⟩
  | .hbm, ⟨71, _⟩ => ⟨S2000000, .i32⟩
  | .hbm, ⟨72, _⟩ => ⟨S2000000x1, .i32⟩
  | .hbm, ⟨73, _⟩ => ⟨S2000000x32, .f32⟩
  | .hbm, ⟨74, _⟩ => ⟨S2000000x32, .f32⟩
  | .hbm, ⟨75, _⟩ => ⟨S_, .f32⟩
  | .hbm, ⟨76, _⟩ => ⟨S2000000, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call0_cst : Ref sig .tc := ⟨.hbm, 29, rfl⟩
abbrev main_call0_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_1 : Ref sig .tc := ⟨.hbm, 34, rfl⟩
abbrev main_v20 : Ref sig .tc := ⟨.hbm, 35, rfl⟩
abbrev main_v21 : Ref sig .tc := ⟨.hbm, 36, rfl⟩
abbrev main_c_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_4 : Ref sig .tc := ⟨.hbm, 56, rfl⟩
abbrev main_v39 : Ref sig .tc := ⟨.hbm, 57, rfl⟩
abbrev main_v40 : Ref sig .tc := ⟨.hbm, 58, rfl⟩
abbrev main_c_5 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_6 : Ref sig .tc := ⟨.hbm, 65, rfl⟩
abbrev main_v46 : Ref sig .tc := ⟨.hbm, 66, rfl⟩
abbrev main_v47 : Ref sig .tc := ⟨.hbm, 67, rfl⟩
abbrev main_c_7 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_8 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  reducesTo_S2000000x32_S2000000_d1 : S2000000x32.ReducesTo [1] S2000000
  h_S_ : 0 < S_.numel
  dot_S100000x256_S256x64_S100000x64_1_0_0_1_n_n_wf : DotDims.WF S100000x256 S256x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x32_S100000x32_1_0_0_1_n_n_wf : DotDims.WF S100000x64 S64x32 S100000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  gather_S100000x32_S2000000x1_S2000000x32_1_0_n_n_0_1_132_wf : GatherDims.WF S100000x32 S2000000x1 S2000000x32 [1] [0] [] [0] [] 1 ![1, 32]

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def gather_S100000x32_S2000000x1_S2000000x32_1_0_n_n_0_1_132 : GatherDims S100000x32 S2000000x1 S2000000x32 where
  offsetDims := [1]
  collapsedSliceDims := [0]
  operandBatchingDims := []
  startIndicesBatchingDims := []
  startIndexMap := [0]
  indexVectorDim := 1
  sliceSizes := ![1, 32]
  wf := gather_S100000x32_S2000000x1_S2000000x32_1_0_n_n_0_1_132_wf

class Facts : Prop extends Facts₀ where

variable [Facts]
-- ==== Proof.WholeRun.lean ====
/-
  The whole program's run with its result named.

  The program is five pipelined regions among stretches of host operations. The generated frame states the buffer
  contents at every boundary between two segments as a fold from the launch memory (`Gen.W0` … `Gen.W12`) and ends its
  run at "every unscoped buffer holds `Gen.W12`", of which it keeps only the nine arguments. Here the same run keeps one
  buffer more: the result `main_v53` ends at `Gen.W12` read at that buffer. What that value is, as a function of the
  arguments, is read off the fold in the modules that follow.
-/
import proofs.«113992_j68779606278430_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, faults nowhere, and ends with the result buffer at the last
    boundary's contents and the nine arguments as launched. -/
theorem run_last : θ_run defs (onTc (τ := τ) (main (F := F))) ⟨m, fun _ => 0, ρ⟩ (fun r => ∀ c : Dev nD,
      r.2.mem ((c.tc : Thread nD τ).loc main_v53) = W12 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v53 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c)⟩)

end Cert.KernelIdeal.Whole

end
-- ==== Proof.Product2.lean ====
/-
  The second dense product, z1 · W2, computed block by block.

  Region 2 walks the 100000 rows of the first layer's output in 20 blocks of 5000 rows; at block t the body multiplies rows
  5000·t … 5000·t + 4999 by the whole 64 × 32 matrix W2 (rounding to bf16 is the identity on the extended reals, the
  accumulator is the zero splat) and writes the 5000 × 32 product back as rows 5000·t … of the result. Entry (r, n) of a
  block's product is the sum over k < 64 of z1(5000·t + r, k) · W2(k, n), which is entry (5000·t + r, n) of the one whole
  product: the 20 blocks tile the result, so the result array ends holding the whole product. Stated for whatever contents
  the region finds in its buffers when it is entered.
-/
import proofs.«113992_j68779606278430_2_alg».proof.Proof.Gen.KernelIdeal.Frame
import proofs.«113992_j68779606278430_2_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Product2

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The whole product, as the host computes it -/

/-- The product of a 100000 × 64 array and a 64 × 32 matrix. -/
def whole (z : (⟨Cert.ReferenceIdeal.S100000x64, .f32⟩ : BufTy).Contents (Elt Ideal)) (w : (⟨Cert.ReferenceIdeal.S64x32, .f32⟩ : BufTy).Contents (Elt Ideal)) :
    (⟨Cert.ReferenceIdeal.S100000x32, .f32⟩ : BufTy).Contents (Elt Ideal) :=
  Host.dotGeneral (F := Ideal) (φ₁ := .f32) (φ₂ := .f32) Cert.ReferenceIdeal.dot_S100000x64_S64x32_S100000x32_1_0_0_1_n_n none z w

/-- Its entry (r, n) is the sum over k < 64 of z(r, k) · w(k, n). -/
theorem whole_apply (z : (⟨Cert.ReferenceIdeal.S100000x64, .f32⟩ : BufTy).Contents (Elt Ideal)) (w : (⟨Cert.ReferenceIdeal.S64x32, .f32⟩ : BufTy).Contents (Elt Ideal))
    (i : Cert.ReferenceIdeal.S100000x32.Idx) :
    whole z w i = ∑ k : Fin 64, z (Cert.ReferenceIdeal.Read.lidx_main_v18 i k) * w (Cert.ReferenceIdeal.Read.ridx_main_v18 i k) := by
  unfold whole
  simp only [Host.dotGeneral]
  rw [Ideal.dotGeneral_apply, ← Equiv.sum_comp (ValueIdx.contrEquiv1 Cert.ReferenceIdeal.dot_S100000x64_S64x32_S100000x32_1_0_0_1_n_n 64 rfl rfl).symm]
  refine Finset.sum_congr rfl fun k _ => ?_
  have hk := ValueIdx.contrEquiv1_symm_val Cert.ReferenceIdeal.dot_S100000x64_S64x32_S100000x32_1_0_0_1_n_n 64 rfl rfl k
  have el : Cert.ReferenceIdeal.dot_S100000x64_S64x32_S100000x32_1_0_0_1_n_n.lhsIdx i ((ValueIdx.contrEquiv1 Cert.ReferenceIdeal.dot_S100000x64_S64x32_S100000x32_1_0_0_1_n_n 64 rfl rfl).symm k) = Cert.ReferenceIdeal.Read.lidx_main_v18 i k := funext fun a => Fin.ext (by
    match a with
    | ⟨0, _⟩ => exact Cert.ReferenceIdeal.Read.lhs_main_v18_0 _ _
    | ⟨1, _⟩ => exact (Cert.ReferenceIdeal.Read.lhs_main_v18_1 _ _).trans hk)
  have er : Cert.ReferenceIdeal.dot_S100000x64_S64x32_S100000x32_1_0_0_1_n_n.rhsIdx i ((ValueIdx.contrEquiv1 Cert.ReferenceIdeal.dot_S100000x64_S64x32_S100000x32_1_0_0_1_n_n 64 rfl rfl).symm k) = Cert.ReferenceIdeal.Read.ridx_main_v18 i k := funext fun a => Fin.ext (by
    match a with
    | ⟨0, _⟩ => exact (Cert.ReferenceIdeal.Read.rhs_main_v18_0 _ _).trans hk
    | ⟨1, _⟩ => exact Cert.ReferenceIdeal.Read.rhs_main_v18_1 _ _)
  rw [el, er]

/-! ## A block's product at an entry -/

theorem lhs_row (i : S5000x32.Idx) (q : dot_S5000x64_S64x32_S5000x32_1_0_0_1_n_n.contr.Idx) :
    (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
theorem lhs_col (i : S5000x32.Idx) (q : dot_S5000x64_S64x32_S5000x32_1_0_0_1_n_n.contr.Idx) :
    (dot_S5000x64_S64x32_S5000x32_1_0_0_1_n_n.lhsIdx i q 1).val = (q ⟨0, by decide⟩).val :=
  dot_S5000x64_S64x32_S5000x32_1_0_0_1_n_n.lhsIdx_val_of_single rfl i q
theorem rhs_row (i : S5000x32.Idx) (q : dot_S5000x64_S64x32_S5000x32_1_0_0_1_n_n.contr.Idx) :
    (dot_S5000x64_S64x32_S5000x32_1_0_0_1_n_n.rhsIdx i q 0).val = (q ⟨0, by decide⟩).val :=
  dot_S5000x64_S64x32_S5000x32_1_0_0_1_n_n.rhsIdx_val_of_single rfl i q
theorem rhs_col (i : S5000x32.Idx) (q : dot_S5000x64_S64x32_S5000x32_1_0_0_1_n_n.contr.Idx) :
    (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- Row `r` of the block, column `k`. -/
abbrev blockRowAt (i : S5000x32.Idx) (k : Fin 64) : S5000x64.Idx := fun a => match a with
  | ⟨0, _⟩ => ⟨(i 0).val, (i 0).isLt⟩
  | ⟨1, _⟩ => ⟨k.val, k.isLt⟩
/-- Row `k` of the weights, column `n`. -/
abbrev weightAt (i : S5000x32.Idx) (k : Fin 64) : S64x32.Idx := fun a => match a with
  | ⟨0, _⟩ => ⟨k.val, k.isLt⟩
  | ⟨1, _⟩ => ⟨(i 1).val, (i 1).isLt⟩

/-- What the body stores, at entry (r, n): the sum over k of the block's (r, k) times the weights' (k, n). -/
theorem block_product_apply (x : Vec Ideal S5000x64 .f32) (w : Vec Ideal S64x32 .f32) (j : S5000x32.Idx) :
    k2_pay1 (F := Ideal) x w j = ∑ k : Fin 64, x (blockRowAt j k) * w (weightAt j k) := by
  unfold k2_pay1
  simp only [matmul, shapeCast_self]
  rw [Ideal.matmul_constant_zero_apply, ← Equiv.sum_comp (ValueIdx.contrEquiv1 dot_S5000x64_S64x32_S5000x32_1_0_0_1_n_n 64 rfl rfl).symm]
  refine Finset.sum_congr rfl fun k _ => ?_
  have hk := ValueIdx.contrEquiv1_symm_val dot_S5000x64_S64x32_S5000x32_1_0_0_1_n_n 64 rfl rfl k
  have el : dot_S5000x64_S64x32_S5000x32_1_0_0_1_n_n.lhsIdx j ((ValueIdx.contrEquiv1 dot_S5000x64_S64x32_S5000x32_1_0_0_1_n_n 64 rfl rfl).symm k) = blockRowAt j k := funext fun a => Fin.ext (by
    match a with
    | ⟨0, _⟩ => exact lhs_row _ _
    | ⟨1, _⟩ => exact (lhs_col _ _).trans hk)
  have er : dot_S5000x64_S64x32_S5000x32_1_0_0_1_n_n.rhsIdx j ((ValueIdx.contrEquiv1 dot_S5000x64_S64x32_S5000x32_1_0_0_1_n_n 64 rfl rfl).symm k) = weightAt j k := funext fun a => Fin.ext (by
    match a with
    | ⟨0, _⟩ => exact (rhs_row _ _).trans hk
    | ⟨1, _⟩ => exact rhs_col _ _)
  rw [el, er]
  rfl

/-! ## The printed index maps over the grid -/

/-- Block t of the left operand is rows 5000·t …, all 64 columns; the weights are read whole at every point; block t of the
    result is rows 5000·t …, all 32 columns. -/
theorem idx_facts : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-! ## What a point writes back -/

/-- Point t writes back block t of the whole product of the region's two operand arrays. -/
theorem flushed_eq (c : Dev nD) (t : Fin cfg2.N) :
    (dat2 V c).flushed 2 t = ((cfg2.win 2).blk t).view.read (Elt Ideal) (whole (V c main_v15) (V c main_arg7)) := by
  show (cfg2.win 2).cut (grid2.coords t) ((dat2 V c).after 2 t) = _
  rw [after2_2]
  unfold out2_2
  rw [View.canon_unit_zero hz]
  simp only [View.ld_unit_zero (S := S5000x64) hz, View.ld_unit_zero (S := S64x32) hz]
  obtain ⟨e0, e1, e2, e3, e4, e5⟩ := idx_facts t
  funext j
  show k2_pay1 (iblk2 V c 0 t) (iblk2 V c 1 t) j = whole (V c main_v15) (V c main_arg7) (((cfg2.win 2).blk t).view.emb j)
  rw [block_product_apply, whole_apply]
  refine Finset.sum_congr rfl fun k _ => ?_
  have hx : iblk2 V c 0 t (blockRowAt j k)
      = V c main_v15 (Cert.ReferenceIdeal.Read.lidx_main_v18 (((cfg2.win 2).blk t).view.emb j) k) := by
    show V c main_v15 (((cfg2.win 0).blk t).view.emb (blockRowAt j k)) = _
    refine congrArg (V c main_v15) (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 64 + 1 * k.val = k.val; omega
  have hw : iblk2 V c 1 t (weightAt j k)
      = V c main_arg7 (Cert.ReferenceIdeal.Read.ridx_main_v18 (((cfg2.win 2).blk t).view.emb j) k) := by
    show V c main_arg7 (((cfg2.win 1).blk t).view.emb (weightAt j k)) = _
    refine congrArg (V c main_arg7) (funext fun a => Fin.ext ?_)
    match a with
    | ⟨0, _⟩ => show win2_1.index t (0 : Fin 2) * 64 + 1 * k.val = k.val; omega
    | ⟨1, _⟩ => show win2_1.index t (1 : Fin 2) * 32 + 1 * (j 1).val = win2_2.index t (1 : Fin 2) * 32 + 1 * (j 1).val; omega
  rw [hx, hw]

/-! ## The blocks tile the result -/

theorem mem_blk (t : Fin cfg2.N) (i : S100000x32.Idx) :
    i ∈ ((cfg2.win 2).blk t).view.set ↔ ∀ a : Fin 2, win2_2.index t a * S5000x32.size a ≤ (i a).val ∧ (i a).val < win2_2.index t a * S5000x32.size a + S5000x32.size a := by
  show i ∈ ((View.whole main_v16).slice (win2_2.rect t)).set ↔ _
  rw [View.set_slice_whole, Rect.mem_set_unit]
  exact Iff.rfl

/-- Row r of the result is in block r / 5000. -/
theorem cover (i : S100000x32.Idx) :
    ∃ t : Fin cfg2.N, (cfg2.win 2).flush t = true ∧ i ∈ ((cfg2.win 2).blk t).view.set := by
  have h0 : (i 0).val < 100000 := (i 0).isLt
  have h1 : (i 1).val < 32 := (i 1).isLt
  have hN : cfg2.N = 20 := N_2
  have ht : (i 0).val / 5000 < cfg2.N := by rw [hN]; omega
  obtain ⟨-, -, -, -, e4, e5⟩ := idx_facts ⟨(i 0).val / 5000, ht⟩
  have e4' : win2_2.index ⟨(i 0).val / 5000, ht⟩ (0 : Fin 2) = (i 0).val / 5000 := e4
  refine ⟨⟨(i 0).val / 5000, ht⟩, flush2_2 _, ?_⟩
  rw [mem_blk]
  intro a
  match a with
  | ⟨0, _⟩ => show win2_2.index ⟨(i 0).val / 5000, ht⟩ (0 : Fin 2) * 5000 ≤ (i 0).val ∧ (i 0).val < win2_2.index ⟨(i 0).val / 5000, ht⟩ (0 : Fin 2) * 5000 + 5000; omega
  | ⟨1, _⟩ => show win2_2.index ⟨(i 0).val / 5000, ht⟩ (1 : Fin 2) * 32 ≤ (i 1).val ∧ (i 1).val < win2_2.index ⟨(i 0).val / 5000, ht⟩ (1 : Fin 2) * 32 + 32; omega

/-- After the region its result array holds the whole product of its two operand arrays. -/
theorem array_eq (c : Dev nD) :
    (dat2 V c).arrAt 2 cfg2.N = whole (V c main_v15) (V c main_arg7) :=
  (dat2 V c).arrAt_eq_of_cover 2 _ (fun t _ => flushed_eq V c t) cover

end Cert.KernelIdeal.Product2

end
-- ==== Proof.Bias1.lean ====
/-
  The first layer's bias and rectifier.

  Region 1 walks the 100000 rows of the aggregated features in 20 blocks of 5000 rows. At every point the body adds the
  one-row bias to each row of its block and takes the maximum with zero: entry (r, n) of what it stores is
  max (s(5000·t + r, n) + b(0, n), 0). The host computes the same array by broadcasting the bias row down the rows, adding, and
  taking the maximum with a broadcast zero; entry (i, n) of that is max (s(i, n) + b(0, n), 0). The blocks tile the result, so
  the result array ends holding the host's array. The one-row bias reaches the region as a reshape of the bias vector, and
  the host lays the vector out as a row by a broadcast: the same row. Stated for whatever contents the region finds in its
  buffers when it is entered.
-/
import proofs.«113992_j68779606278430_2_alg».proof.Proof.Gen.KernelIdeal.Frame
import proofs.«113992_j68779606278430_2_alg».proof.Proof.Gen.ReferenceIdeal
import Idealize.ShloMosaic.Lib.Pipeline.Value
import Idealize.ShloMosaic.Lib.ValueIdx

set_option maxRecDepth 16384

noncomputable section

namespace Cert.KernelIdeal.Bias1

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The host's bias and rectifier -/

/-- Every row plus the one-row bias, then the maximum with zero. -/
def biasRelu (s : Cert.ReferenceIdeal.S100000x64.Idx → Elt Ideal .f32) (brow : Cert.ReferenceIdeal.S1x64.Idx → Elt Ideal .f32) :
    Cert.ReferenceIdeal.S100000x64.Idx → Elt Ideal .f32 :=
  maximumf (F := Ideal) (φ := .f32) (addf (F := Ideal) (φ := .f32) s (broadcastInDim Cert.ReferenceIdeal.S100000x64 ![0, 1] Cert.ReferenceIdeal.Gen.bcast_S1x64_S100000x64_0_1 brow))
    (broadcastInDim Cert.ReferenceIdeal.S100000x64 ![] Cert.ReferenceIdeal.Gen.bcast_S_S100000x64 (constant (F := Ideal) Cert.ReferenceIdeal.S_ .f32 0x00000000#32))

/-- The bias row's entry under column n. -/
abbrev rowOf (i : Cert.ReferenceIdeal.S100000x64.Idx) : Cert.ReferenceIdeal.S1x64.Idx := fun a => match a with
  | ⟨0, _⟩ => ⟨0, Nat.one_pos⟩
  | ⟨1, _⟩ => ⟨(i 1).val, (i 1).isLt⟩

theorem biasRelu_apply (s : Cert.ReferenceIdeal.S100000x64.Idx → Elt Ideal .f32) (brow : Cert.ReferenceIdeal.S1x64.Idx → Elt Ideal .f32)
    (i : Cert.ReferenceIdeal.S100000x64.Idx) :
    biasRelu s brow i = FloatOps.maximumf (F := Ideal) (φ := .f32) (FloatOps.addf (F := Ideal) (φ := .f32) (s i) (brow (rowOf i))) (FloatOps.ofBits (F := Ideal) .f32 0x00000000#32) := by
  unfold biasRelu
  show FloatOps.maximumf (F := Ideal) (φ := .f32) (FloatOps.addf (F := Ideal) (φ := .f32) (s i) (broadcastInDim Cert.ReferenceIdeal.S100000x64 ![0, 1] Cert.ReferenceIdeal.Gen.bcast_S1x64_S100000x64_0_1 brow i)) _ = _
  rw [broadcastInDim_apply ![0, 1] Cert.ReferenceIdeal.Gen.bcast_S1x64_S100000x64_0_1 brow i (rowOf i) (by
    intro a
    match a with
    | ⟨0, _⟩ => rfl
    | ⟨1, _⟩ => rfl)]
  rfl

/-! ## A block's bias and rectifier at an entry -/

abbrev rowOfBlk (j : S5000x64.Idx) : S1x64.Idx := fun a => match a with
  | ⟨0, _⟩ => ⟨0, Nat.one_pos⟩
  | ⟨1, _⟩ => ⟨(j 1).val, (j 1).isLt⟩

theorem block_apply (x0 : Vec Ideal S5000x64 .f32) (x1 : Vec Ideal S1x64 .f32) (j : S5000x64.Idx) :
    k1_pay1 (F := Ideal) x0 x1 j
      = FloatOps.maximumf (F := Ideal) (φ := .f32) (FloatOps.addf (F := Ideal) (φ := .f32) (x0 j) (x1 (rowOfBlk j))) (FloatOps.ofBits (F := Ideal) .f32 0x00000000#32) := by
  unfold k1_pay1
  simp only [shapeCast_self]
  show FloatOps.maximumf (F := Ideal) (φ := .f32) (FloatOps.addf (F := Ideal) (φ := .f32) (x0 j) (broadcastTo S5000x64 x1 broadcasts_S1x64_S5000x64 j)) _ = _
  rw [broadcastTo_apply x1 broadcasts_S1x64_S5000x64 j (rowOfBlk j) (by
    intro a
    match a with
    | ⟨0, _⟩ => rfl
    | ⟨1, _⟩ => rfl)]
  rfl

/-! ## The printed index maps over the grid -/

theorem idx_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-! ## What a point writes back -/

theorem flushed_eq (c : Dev nD) (t : Fin cfg1.N) :
    (dat1 V c).flushed 2 t = ((cfg1.win 2).blk t).view.read (Elt Ideal) (biasRelu (V c main_v13) (V c main_v14)) := by
  show (cfg1.win 2).cut (grid1.coords t) ((dat1 V c).after 2 t) = _
  rw [after1_2]
  unfold out1_2
  rw [View.canon_unit_zero hz]
  simp only [View.ld_unit_zero (S := S5000x64) hz, View.ld_unit_zero (S := S1x64) hz]
  obtain ⟨e0, e1, e2, e3, e4, e5⟩ := idx_facts t
  funext j
  show k1_pay1 (iblk1 V c 0 t) (iblk1 V c 1 t) j = biasRelu (V c main_v13) (V c main_v14) (((cfg1.win 2).blk t).view.emb j)
  rw [block_apply, biasRelu_apply]
  have hx : iblk1 V c 0 t j = V c main_v13 (((cfg1.win 2).blk t).view.emb j) := by
    show V c main_v13 (((cfg1.win 0).blk t).view.emb j) = _
    refine congrArg (V c main_v13) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 64 + 1 * (j 1).val = win1_2.index t (1 : Fin 2) * 64 + 1 * (j 1).val; omega
  have hb : iblk1 V c 1 t (rowOfBlk j) = V c main_v14 (rowOf (((cfg1.win 2).blk t).view.emb j)) := by
    show V c main_v14 (((cfg1.win 1).blk t).view.emb (rowOfBlk j)) = _
    refine congrArg (V c main_v14) (funext fun a => Fin.ext ?_)
    match a with
    | ⟨0, _⟩ => show win1_1.index t (0 : Fin 2) * 1 + 1 * 0 = 0; omega
    | ⟨1, _⟩ => show win1_1.index t (1 : Fin 2) * 64 + 1 * (j 1).val = win1_2.index t (1 : Fin 2) * 64 + 1 * (j 1).val; omega
  rw [hx, hb]

/-! ## The blocks tile the result -/

theorem mem_blk (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v15).slice (win1_2.rect t)).set ↔ _
  rw [View.set_slice_whole, Rect.mem_set_unit]
  exact Iff.rfl

theorem cover (i : S100000x64.Idx) :
    ∃ t : Fin cfg1.N, (cfg1.win 2).flush t = true ∧ i ∈ ((cfg1.win 2).blk t).view.set := by
  have h0 : (i 0).val < 100000 := (i 0).isLt
  have h1 : (i 1).val < 64 := (i 1).isLt
  have hN : cfg1.N = 20 := N_1
  have ht : (i 0).val / 5000 < cfg1.N := by rw [hN]; omega
  obtain ⟨-, -, -, -, e4, e5⟩ := idx_facts ⟨(i 0).val / 5000, ht⟩
  have e4' : win1_2.index ⟨(i 0).val / 5000, ht⟩ (0 : Fin 2) = (i 0).val / 5000 := e4
  refine ⟨⟨(i 0).val / 5000, ht⟩, flush1_2 _, ?_⟩
  rw [mem_blk]
  intro a
  match a with
  | ⟨0, _⟩ => show win1_2.index ⟨(i 0).val / 5000, ht⟩ (0 : Fin 2) * 5000 ≤ (i 0).val ∧ (i 0).val < win1_2.index ⟨(i 0).val / 5000, ht⟩ (0 : Fin 2) * 5000 + 5000; omega
  | ⟨1, _⟩ => show win1_2.index ⟨(i 0).val / 5000, ht⟩ (1 : Fin 2) * 64 ≤ (i 1).val ∧ (i 1).val < win1_2.index ⟨(i 0).val / 5000, ht⟩ (1 : Fin 2) * 64 + 64; omega

/-- After the region its result array holds the host's bias-and-rectifier of its two operand arrays. -/
theorem array_eq (c : Dev nD) :
    (dat1 V c).arrAt 2 cfg1.N = biasRelu (V c main_v13) (V c main_v14) :=
  (dat1 V c).arrAt_eq_of_cover 2 _ (fun t _ => flushed_eq V c t) cover

/-! ## The bias vector as a row -/

/-- The reshape of a 64-vector to one row is the host's broadcast of it along the row. -/
theorem reshape_row (b : Cert.ReferenceIdeal.S64.Idx → Elt Ideal .f32) :
    shapeCast S1x64 b shapeCasts_S64_S1x64 = broadcastInDim Cert.ReferenceIdeal.S1x64 ![1] Cert.ReferenceIdeal.Gen.bcast_S64_S1x64_1 b := by
  funext i
  have h0 : (i 0).val < 1 := (i 0).isLt
  have e1 := shapeCast_apply b shapeCasts_S64_S1x64 i (fun a => match a with | ⟨0, _⟩ => ⟨(i 1).val, (i 1).isLt⟩) (by
    rw [Shape.rowMajor_val_two, Shape.rowMajor_val_one]
    show (i 1).val = (i 0).val * 64 + (i 1).val
    omega)
  have e2 := broadcastInDim_apply ![1] Cert.ReferenceIdeal.Gen.bcast_S64_S1x64_1 b i (fun a => match a with | ⟨0, _⟩ => ⟨(i 1).val, (i 1).isLt⟩) (by
    intro a
    match a with
    | ⟨0, _⟩ => rfl)
  exact e1.trans e2.symm

end Cert.KernelIdeal.Bias1

end
-- ==== Proof.Bias2.lean ====
/-
  The second layer's bias.

  Region 3 walks the 100000 rows of the second aggregation in 20 blocks of 5000 rows. At every point the body adds the one-row
  bias to each row of its block: entry (r, n) of what it stores is s(5000·t + r, n) + b(0, n). The host computes the same array
  by broadcasting the bias row down the rows and adding; entry (i, n) of that is s(i, n) + b(0, n). The blocks tile the result,
  so the result array ends holding the host's array. The one-row bias reaches the region as a reshape of the bias vector,
  and the host lays the vector out as a row by a broadcast: the same row. Stated for whatever contents the region finds in
  its buffers when it is entered.
-/
import proofs.«113992_j68779606278430_2_alg».proof.Proof.Gen.KernelIdeal.Frame
import proofs.«113992_j68779606278430_2_alg».proof.Proof.Gen.ReferenceIdeal
import Idealize.ShloMosaic.Lib.Pipeline.Value
import Idealize.ShloMosaic.Lib.ValueIdx

set_option maxRecDepth 16384

noncomputable section

namespace Cert.KernelIdeal.Bias2

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The host's bias -/

/-- Every row plus the one-row bias. -/
def biasAdd (s : Cert.ReferenceIdeal.S100000x32.Idx → Elt Ideal .f32) (brow : Cert.ReferenceIdeal.S1x32.Idx → Elt Ideal .f32) :
    Cert.ReferenceIdeal.S100000x32.Idx → Elt Ideal .f32 :=
  addf (F := Ideal) (φ := .f32) s (broadcastInDim Cert.ReferenceIdeal.S100000x32 ![0, 1] Cert.ReferenceIdeal.Gen.bcast_S1x32_S100000x32_0_1 brow)

/-- The bias row's entry under column n. -/
abbrev rowOf (i : Cert.ReferenceIdeal.S100000x32.Idx) : Cert.ReferenceIdeal.S1x32.Idx := fun a => match a with
  | ⟨0, _⟩ => ⟨0, Nat.one_pos⟩
  | ⟨1, _⟩ => ⟨(i 1).val, (i 1).isLt⟩

theorem biasAdd_apply (s : Cert.ReferenceIdeal.S100000x32.Idx → Elt Ideal .f32) (brow : Cert.ReferenceIdeal.S1x32.Idx → Elt Ideal .f32)
    (i : Cert.ReferenceIdeal.S100000x32.Idx) :
    biasAdd s brow i = FloatOps.addf (F := Ideal) (φ := .f32) (s i) (brow (rowOf i)) := by
  unfold biasAdd
  show FloatOps.addf (F := Ideal) (φ := .f32) (s i) (broadcastInDim Cert.ReferenceIdeal.S100000x32 ![0, 1] Cert.ReferenceIdeal.Gen.bcast_S1x32_S100000x32_0_1 brow i) = _
  rw [broadcastInDim_apply ![0, 1] Cert.ReferenceIdeal.Gen.bcast_S1x32_S100000x32_0_1 brow i (rowOf i) (by
    intro a
    match a with
    | ⟨0, _⟩ => rfl
    | ⟨1, _⟩ => rfl)]

/-! ## A block's bias at an entry -/

abbrev rowOfBlk (j : S5000x32.Idx) : S1x32.Idx := fun a => match a with
  | ⟨0, _⟩ => ⟨0, Nat.one_pos⟩
  | ⟨1, _⟩ => ⟨(j 1).val, (j 1).isLt⟩

theorem block_apply (x0 : Vec Ideal S5000x32 .f32) (x1 : Vec Ideal S1x32 .f32) (j : S5000x32.Idx) :
    k3_pay1 (F := Ideal) x0 x1 j = FloatOps.addf (F := Ideal) (φ := .f32) (x0 j) (x1 (rowOfBlk j)) := by
  unfold k3_pay1
  simp only [shapeCast_self]
  show FloatOps.addf (F := Ideal) (φ := .f32) (x0 j) (broadcastTo S5000x32 x1 broadcasts_S1x32_S5000x32 j) = _
  rw [broadcastTo_apply x1 broadcasts_S1x32_S5000x32 j (rowOfBlk j) (by
    intro a
    match a with
    | ⟨0, _⟩ => rfl
    | ⟨1, _⟩ => rfl)]

/-! ## The printed index maps over the grid -/

theorem idx_facts : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-! ## What a point writes back -/

theorem flushed_eq (c : Dev nD) (t : Fin cfg3.N) :
    (dat3 V c).flushed 2 t = ((cfg3.win 2).blk t).view.read (Elt Ideal) (biasAdd (V c main_v29) (V c main_v30)) := by
  show (cfg3.win 2).cut (grid3.coords t) ((dat3 V c).after 2 t) = _
  rw [after3_2]
  unfold out3_2
  rw [View.canon_unit_zero hz]
  simp only [View.ld_unit_zero (S := S5000x32) hz, View.ld_unit_zero (S := S1x32) hz]
  obtain ⟨e0, e1, e2, e3, e4, e5⟩ := idx_facts t
  funext j
  show k3_pay1 (iblk3 V c 0 t) (iblk3 V c 1 t) j = biasAdd (V c main_v29) (V c main_v30) (((cfg3.win 2).blk t).view.emb j)
  rw [block_apply, biasAdd_apply]
  have hx : iblk3 V c 0 t j = V c main_v29 (((cfg3.win 2).blk t).view.emb j) := by
    show V c main_v29 (((cfg3.win 0).blk t).view.emb j) = _
    refine congrArg (V c main_v29) (funext fun a => Fin.ext ?_)
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 32 + 1 * (j 1).val = win3_2.index t (1 : Fin 2) * 32 + 1 * (j 1).val; omega
  have hb : iblk3 V c 1 t (rowOfBlk j) = V c main_v30 (rowOf (((cfg3.win 2).blk t).view.emb j)) := by
    show V c main_v30 (((cfg3.win 1).blk t).view.emb (rowOfBlk j)) = _
    refine congrArg (V c main_v30) (funext fun a => Fin.ext ?_)
    match a with
    | ⟨0, _⟩ => show win3_1.index t (0 : Fin 2) * 1 + 1 * 0 = 0; omega
    | ⟨1, _⟩ => show win3_1.index t (1 : Fin 2) * 32 + 1 * (j 1).val = win3_2.index t (1 : Fin 2) * 32 + 1 * (j 1).val; omega
  rw [hx, hb]

/-! ## The blocks tile the result -/

theorem mem_blk (t : Fin cfg3.N) (i : S100000x32.Idx) :
    i ∈ ((cfg3.win 2).blk t).view.set ↔ ∀ a : Fin 2, win3_2.index t a * S5000x32.size a ≤ (i a).val ∧ (i a).val < win3_2.index t a * S5000x32.size a + S5000x32.size a := by
  show i ∈ ((View.whole main_v31).slice (win3_2.rect t)).set ↔ _
  rw [View.set_slice_whole, Rect.mem_set_unit]
  exact Iff.rfl

theorem cover (i : S100000x32.Idx) :
    ∃ t : Fin cfg3.N, (cfg3.win 2).flush t = true ∧ i ∈ ((cfg3.win 2).blk t).view.set := by
  have h0 : (i 0).val < 100000 := (i 0).isLt
  have h1 : (i 1).val < 32 := (i 1).isLt
  have hN : cfg3.N = 20 := N_3
  have ht : (i 0).val / 5000 < cfg3.N := by rw [hN]; omega
  obtain ⟨-, -, -, -, e4, e5⟩ := idx_facts ⟨(i 0).val / 5000, ht⟩
  have e4' : win3_2.index ⟨(i 0).val / 5000, ht⟩ (0 : Fin 2) = (i 0).val / 5000 := e4
  refine ⟨⟨(i 0).val / 5000, ht⟩, flush3_2 _, ?_⟩
  rw [mem_blk]
  intro a
  match a with
  | ⟨0, _⟩ => show win3_2.index ⟨(i 0).val / 5000, ht⟩ (0 : Fin 2) * 5000 ≤ (i 0).val ∧ (i 0).val < win3_2.index ⟨(i 0).val / 5000, ht⟩ (0 : Fin 2) * 5000 + 5000; omega
  | ⟨1, _⟩ => show win3_2.index ⟨(i 0).val / 5000, ht⟩ (1 : Fin 2) * 32 ≤ (i 1).val ∧ (i 1).val < win3_2.index ⟨(i 0).val / 5000, ht⟩ (1 : Fin 2) * 32 + 32; omega

/-- After the region its result array holds the host's bias sum of its two operand arrays. -/
theorem array_eq (c : Dev nD) :
    (dat3 V c).arrAt 2 cfg3.N = biasAdd (V c main_v29) (V c main_v30) :=
  (dat3 V c).arrAt_eq_of_cover 2 _ (fun t _ => flushed_eq V c t) cover

/-! ## The bias vector as a row -/

/-- The reshape of a 32-vector to one row is the host's broadcast of it along the row. -/
theorem reshape_row (b : Cert.ReferenceIdeal.S32.Idx → Elt Ideal .f32) :
    shapeCast S1x32 b shapeCasts_S32_S1x32 = broadcastInDim Cert.ReferenceIdeal.S1x32 ![1] Cert.ReferenceIdeal.Gen.bcast_S32_S1x32_1 b := by
  funext i
  have h0 : (i 0).val < 1 := (i 0).isLt
  have e1 := shapeCast_apply b shapeCasts_S32_S1x32 i (fun a => match a with | ⟨0, _⟩ => ⟨(i 1).val, (i 1).isLt⟩) (by
    rw [Shape.rowMajor_val_two, Shape.rowMajor_val_one]
    show (i 1).val = (i 0).val * 32 + (i 1).val
    omega)
  have e2 := broadcastInDim_apply ![1] Cert.ReferenceIdeal.Gen.bcast_S32_S1x32_1 b i (fun a => match a with | ⟨0, _⟩ => ⟨(i 1).val, (i 1).isLt⟩) (by
    intro a
    match a with
    | ⟨0, _⟩ => rfl)
  exact e1.trans e2.symm

end Cert.KernelIdeal.Bias2

end
-- ==== Proof.Spec.lean ====
/-
  The link-prediction scores as one function of the nine arguments.

  Both programs compute, on the extended reals,
    h1 = x · W1,                     s1(i) = Σ over edges e with dst(e) = i of val(e) · h1(src(e)),   z1 = max (s1 + b1, 0),
    h2 = z1 · W2,                    s2(i) = Σ over edges e with dst(e) = i of val(e) · h2(src(e)),   z2 = s2 + b2,
    score(e) = Σ over k < 32 of z2(u(e), k) · z2(v(e), k)       for the 2000000 pairs (u, v) of the edge index,
  where a negative node number counts from the end (100000 is added to it). The sparse aggregation — gather the rows the
  edges leave from, scale each by its edge's weight, scatter-add into the rows the edges enter — and the two gathers of
  the pairs' endpoints are host operations in both programs, printed alike; they are named here once, in the reference's
  vocabulary. The dense products, the two bias steps and the final lane sums are pipelined regions in the one program and
  host operations in the other; the modules before this one say those agree.
-/
import proofs.«113992_j68779606278430_2_alg».proof.Proof.Gen.ReferenceIdeal.Read
import proofs.«113992_j68779606278430_2_alg».proof.Proof.Product2
import proofs.«113992_j68779606278430_2_alg».proof.Proof.Bias1
import proofs.«113992_j68779606278430_2_alg».proof.Proof.Bias2

set_option maxRecDepth 16384

noncomputable section

namespace Cert.ReferenceIdeal.Spec

open Cert.ReferenceIdeal Cert.ReferenceIdeal.Gen Idealize.ShloMosaic Idealize.ShloMosaic.TcCoe Idealize.SL.Sem

variable {F : FTy → Type} [FloatOps F]

/-- The sparse aggregation of 64-wide rows: gather the source rows, scale by the edge weights, scatter-add at the
    destination rows, from zero. -/
def aggregate64 (h : (⟨S100000x64, .f32⟩ : BufTy).Contents (Elt F)) (src dst : (⟨S3200000, .i32⟩ : BufTy).Contents (Elt F))
    (val : (⟨S3200000, .f32⟩ : BufTy).Contents (Elt F)) : (⟨S100000x64, .f32⟩ : BufTy).Contents (Elt F) :=
  Host.scatterAdd scatter_S100000x64_S3200000x1_S3200000x64_1_0_0_1 (broadcastInDim S100000x64 ![] bcast_S_S100000x64 (constant S_ .f32 0x00000000#32)) (broadcastInDim S3200000x1 ![0] bcast_S3200000_S3200000x1_0 dst) (mulf (broadcastInDim S3200000x64 ![0, 1] bcast_S3200000x1_S3200000x64_0_1 (broadcastInDim S3200000x1 ![0] bcast_S3200000_S3200000x1_0 val)) (Host.gather gather_S100000x64_S3200000x1_S3200000x64_1_0_n_n_0_1_164 h (broadcastInDim S3200000x1 ![0] bcast_S3200000_S3200000x1_0 (select (cmpi .slt src (broadcastInDim S3200000 ![] bcast_S_S3200000 (constantI S_ 32 0#32))) (addi src (broadcastInDim S3200000 ![] bcast_S_S3200000 (constantI S_ 32 100000#32))) src))))

/-- The sparse aggregation of 32-wide rows. -/
def aggregate32 (h : (⟨S100000x32, .f32⟩ : BufTy).Contents (Elt F)) (src dst : (⟨S3200000, .i32⟩ : BufTy).Contents (Elt F))
    (val : (⟨S3200000, .f32⟩ : BufTy).Contents (Elt F)) : (⟨S100000x32, .f32⟩ : BufTy).Contents (Elt F) :=
  Host.scatterAdd scatter_S100000x32_S3200000x1_S3200000x32_1_0_0_1 (broadcastInDim S100000x32 ![] bcast_S_S100000x32 (constant S_ .f32 0x00000000#32)) (broadcastInDim S3200000x1 ![0] bcast_S3200000_S3200000x1_0 dst) (mulf (broadcastInDim S3200000x32 ![0, 1] bcast_S3200000x1_S3200000x32_0_1 (broadcastInDim S3200000x1 ![0] bcast_S3200000_S3200000x1_0 val)) (Host.gather gather_S100000x32_S3200000x1_S3200000x32_1_0_n_n_0_1_132 h (broadcastInDim S3200000x1 ![0] bcast_S3200000_S3200000x1_0 (select (cmpi .slt src (broadcastInDim S3200000 ![] bcast_S_S3200000 (constantI S_ 32 0#32))) (addi src (broadcastInDim S3200000 ![] bcast_S_S3200000 (constantI S_ 32 100000#32))) src))))

/-- The embeddings of the pairs' first endpoints: row 0 of the edge index, gathered. -/
def firstEnds (z : (⟨S100000x32, .f32⟩ : BufTy).Contents (Elt F)) (ei : (⟨S2x2000000, .i32⟩ : BufTy).Contents (Elt F)) :
    (⟨S2000000x32, .f32⟩ : BufTy).Contents (Elt F) :=
  Host.gather gather_S100000x32_S2000000x1_S2000000x32_1_0_n_n_0_1_132 z (broadcastInDim S2000000x1 ![0] bcast_S2000000_S2000000x1_0 (select (cmpi .slt (shapeCast _ (extractStridedSlice S1x2000000 ![0, 0] ei slices_S2x2000000_S1x2000000_0_0) shapeCasts_S1x2000000_S2000000) (broadcastInDim S2000000 ![] bcast_S_S2000000 (constantI S_ 32 0#32))) (addi (shapeCast _ (extractStridedSlice S1x2000000 ![0, 0] ei slices_S2x2000000_S1x2000000_0_0) shapeCasts_S1x2000000_S2000000) (broadcastInDim S2000000 ![] bcast_S_S2000000 (constantI S_ 32 100000#32))) (shapeCast _ (extractStridedSlice S1x2000000 ![0, 0] ei slices_S2x2000000_S1x2000000_0_0) shapeCasts_S1x2000000_S2000000)))

/-- The embeddings of the pairs' second endpoints: row 1 of the edge index, gathered. -/
def secondEnds (z : (⟨S100000x32, .f32⟩ : BufTy).Contents (Elt F)) (ei : (⟨S2x2000000, .i32⟩ : BufTy).Contents (Elt F)) :
    (⟨S2000000x32, .f32⟩ : BufTy).Contents (Elt F) :=
  Host.gather gather_S100000x32_S2000000x1_S2000000x32_1_0_n_n_0_1_132 z (broadcastInDim S2000000x1 ![0] bcast_S2000000_S2000000x1_0 (select (cmpi .slt (shapeCast _ (extractStridedSlice S1x2000000 ![1, 0] ei slices_S2x2000000_S1x2000000_1_0) shapeCasts_S1x2000000_S2000000) (broadcastInDim S2000000 ![] bcast_S_S2000000 (constantI S_ 32 0#32))) (addi (shapeCast _ (extractStridedSlice S1x2000000 ![1, 0] ei slices_S2x2000000_S1x2000000_1_0) shapeCasts_S1x2000000_S2000000) (broadcastInDim S2000000 ![] bcast_S_S2000000 (constantI S_ 32 100000#32))) (shapeCast _ (extractStridedSlice S1x2000000 ![1, 0] ei slices_S2x2000000_S1x2000000_1_0) shapeCasts_S1x2000000_S2000000)))

/-- The first layer's output. -/
def layer1 (x : (⟨S100000x256, .f32⟩ : BufTy).Contents (Elt Ideal)) (src dst : (⟨S3200000, .i32⟩ : BufTy).Contents (Elt Ideal))
    (val : (⟨S3200000, .f32⟩ : BufTy).Contents (Elt Ideal)) (w1 : (⟨S256x64, .f32⟩ : BufTy).Contents (Elt Ideal))
    (b1 : (⟨S64, .f32⟩ : BufTy).Contents (Elt Ideal)) : (⟨S100000x64, .f32⟩ : BufTy).Contents (Elt Ideal) :=
  Cert.KernelIdeal.Bias1.biasRelu (aggregate64 (F := Ideal) (Cert.ReferenceIdeal.Read.val_main_v0 (F := Ideal) x w1) src dst val)
    (broadcastInDim S1x64 ![1] bcast_S64_S1x64_1 b1)

/-- The second layer's output, the node embeddings. -/
def layer2 (z1 : (⟨S100000x64, .f32⟩ : BufTy).Contents (Elt Ideal)) (src dst : (⟨S3200000, .i32⟩ : BufTy).Contents (Elt Ideal))
    (val : (⟨S3200000, .f32⟩ : BufTy).Contents (Elt Ideal)) (w2 : (⟨S64x32, .f32⟩ : BufTy).Contents (Elt Ideal))
    (b2 : (⟨S32, .f32⟩ : BufTy).Contents (Elt Ideal)) : (⟨S100000x32, .f32⟩ : BufTy).Contents (Elt Ideal) :=
  Cert.KernelIdeal.Bias2.biasAdd (aggregate32 (F := Ideal) (Cert.KernelIdeal.Product2.whole z1 w2) src dst val)
    (broadcastInDim S1x32 ![1] bcast_S32_S1x32_1 b2)

/-- The scores of the 2000000 pairs from the node embeddings: the lane sums of the endpoints' products. -/
def decode (z2 : (⟨S100000x32, .f32⟩ : BufTy).Contents (Elt Ideal)) (ei : (⟨S2x2000000, .i32⟩ : BufTy).Contents (Elt Ideal)) :
    (⟨S2000000, .f32⟩ : BufTy).Contents (Elt Ideal) :=
  Host.reduceAdd (F := Ideal) (mulf (F := Ideal) (φ := .f32) (firstEnds (F := Ideal) z2 ei) (secondEnds (F := Ideal) z2 ei))
    (constant (F := Ideal) S_ .f32 0x00000000#32) reducesTo_S2000000x32_S2000000_d1 h_S_

/-- The scores as one function of the nine arguments. -/
def scores (x : (⟨S100000x256, .f32⟩ : BufTy).Contents (Elt Ideal)) (src dst : (⟨S3200000, .i32⟩ : BufTy).Contents (Elt Ideal))
    (val : (⟨S3200000, .f32⟩ : BufTy).Contents (Elt Ideal)) (ei : (⟨S2x2000000, .i32⟩ : BufTy).Contents (Elt Ideal))
    (w1 : (⟨S256x64, .f32⟩ : BufTy).Contents (Elt Ideal)) (b1 : (⟨S64, .f32⟩ : BufTy).Contents (Elt Ideal))
    (w2 : (⟨S64x32, .f32⟩ : BufTy).Contents (Elt Ideal)) (b2 : (⟨S32, .f32⟩ : BufTy).Contents (Elt Ideal)) :
    (⟨S2000000, .f32⟩ : BufTy).Contents (Elt Ideal) :=
  decode (layer2 (layer1 x src dst val w1 b1) src dst val w2 b2) ei

/-- The reference's result, as its run states it, is the score function of its arguments. -/
theorem res_eq (m : (ℓ : Loc nD τ sig) → Buf (Elt Ideal) ℓ) (c : Dev nD) :
    Cert.ReferenceIdeal.Value.res_main_v54 (F := Ideal) m c
      = scores (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  unfold Cert.ReferenceIdeal.Value.res_main_v54 scores decode layer2 layer1 firstEnds secondEnds aggregate32 aggregate64
    Cert.KernelIdeal.Bias2.biasAdd Cert.KernelIdeal.Bias1.biasRelu Cert.KernelIdeal.Product2.whole Cert.ReferenceIdeal.Read.val_main_v0
  rfl

end Cert.ReferenceIdeal.Spec

end
-- ==== Proof.Product1.lean ====
/-
  The first dense product, x · W1, computed block by block.

  Region 0 walks the 100000 rows of x in 20 blocks of 5000 rows. At block t the body multiplies rows 5000·t … 5000·t + 4999
  of x by the whole 256 × 64 matrix W1 (the rounding of both operands to bf16 is the identity on the extended reals, and
  the accumulator is the zero splat), and writes the 5000 × 64 product back as rows 5000·t … of the result. Entry (r, n)
  of a block's product is the sum over k < 256 of x(5000·t + r, k) · W1(k, n), which is entry (5000·t + r, n) of the one
  whole product of x and W1: the 20 blocks tile the result, so the result array ends holding the whole product. The lemmas
  are stated for whatever contents the region finds in its buffers when it is entered.
-/
import proofs.«113992_j68779606278430_2_alg».proof.Proof.Gen.KernelIdeal.Frame
import proofs.«113992_j68779606278430_2_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Product1

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## A block's product at an entry -/

theorem lhs_row (i : S5000x64.Idx) (q : dot_S5000x256_S256x64_S5000x64_1_0_0_1_n_n.contr.Idx) :
    (dot_S5000x256_S256x64_S5000x64_1_0_0_1_n_n.lhsIdx i q 0).val = (i 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
theorem lhs_col (i : S5000x64.Idx) (q : dot_S5000x256_S256x64_S5000x64_1_0_0_1_n_n.contr.Idx) :
    (dot_S5000x256_S256x64_S5000x64_1_0_0_1_n_n.lhsIdx i q 1).val = (q ⟨0, by decide⟩).val :=
  dot_S5000x256_S256x64_S5000x64_1_0_0_1_n_n.lhsIdx_val_of_single rfl i q
theorem rhs_row (i : S5000x64.Idx) (q : dot_S5000x256_S256x64_S5000x64_1_0_0_1_n_n.contr.Idx) :
    (dot_S5000x256_S256x64_S5000x64_1_0_0_1_n_n.rhsIdx i q 0).val = (q ⟨0, by decide⟩).val :=
  dot_S5000x256_S256x64_S5000x64_1_0_0_1_n_n.rhsIdx_val_of_single rfl i q
theorem rhs_col (i : S5000x64.Idx) (q : dot_S5000x256_S256x64_S5000x64_1_0_0_1_n_n.contr.Idx) :
    (dot_S5000x256_S256x64_S5000x64_1_0_0_1_n_n.rhsIdx i q 1).val = (i 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-- Row `r` of the block, column `k`. -/
abbrev blockRowAt (i : S5000x64.Idx) (k : Fin 256) : S5000x256.Idx := fun a => match a with
  | ⟨0, _⟩ => ⟨(i 0).val, (i 0).isLt⟩
  | ⟨1, _⟩ => ⟨k.val, k.isLt⟩
/-- Row `k` of the weights, column `n`. -/
abbrev weightAt (i : S5000x64.Idx) (k : Fin 256) : S256x64.Idx := fun a => match a with
  | ⟨0, _⟩ => ⟨k.val, k.isLt⟩
  | ⟨1, _⟩ => ⟨(i 1).val, (i 1).isLt⟩

/-- What the body stores, at entry (r, n): the sum over k of the block's (r, k) times the weights' (k, n). -/
theorem block_product_apply (x : Vec Ideal S5000x256 .f32) (w : Vec Ideal S256x64 .f32) (j : S5000x64.Idx) :
    k0_pay1 (F := Ideal) x w j = ∑ k : Fin 256, x (blockRowAt j k) * w (weightAt j k) := by
  unfold k0_pay1
  simp only [matmul]
  rw [Ideal.matmul_constant_zero_apply, ← Equiv.sum_comp (ValueIdx.contrEquiv1 dot_S5000x256_S256x64_S5000x64_1_0_0_1_n_n 256 rfl rfl).symm]
  refine Finset.sum_congr rfl fun k _ => ?_
  have hk := ValueIdx.contrEquiv1_symm_val dot_S5000x256_S256x64_S5000x64_1_0_0_1_n_n 256 rfl rfl k
  have el : dot_S5000x256_S256x64_S5000x64_1_0_0_1_n_n.lhsIdx j ((ValueIdx.contrEquiv1 dot_S5000x256_S256x64_S5000x64_1_0_0_1_n_n 256 rfl rfl).symm k) = blockRowAt j k := funext fun a => Fin.ext (by
    match a with
    | ⟨0, _⟩ => exact lhs_row _ _
    | ⟨1, _⟩ => exact (lhs_col _ _).trans hk)
  have er : dot_S5000x256_S256x64_S5000x64_1_0_0_1_n_n.rhsIdx j ((ValueIdx.contrEquiv1 dot_S5000x256_S256x64_S5000x64_1_0_0_1_n_n 256 rfl rfl).symm k) = weightAt j k := funext fun a => Fin.ext (by
    match a with
    | ⟨0, _⟩ => exact (rhs_row _ _).trans hk
    | ⟨1, _⟩ => exact rhs_col _ _)
  rw [el, er]
  rfl

/-! ## The printed index maps over the grid -/

/-- Block t of x is rows 5000·t …, all 256 columns; the weights are read whole at every point; block t of the result is
    rows 5000·t …, all 64 columns. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-! ## What a point writes back -/

/-- Point t writes back block t of the whole product of the region's two operand arrays. -/
theorem flushed_eq (c : Dev nD) (t : Fin cfg0.N) :
    (dat0 V c).flushed 2 t = ((cfg0.win 2).blk t).view.read (Elt Ideal)
      (Cert.ReferenceIdeal.Read.val_main_v0 (F := Ideal) (V c main_arg0) (V c main_arg5)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x64) hz]
  obtain ⟨e0, e1, e2, e3, e4, e5⟩ := idx_facts t
  funext j
  show k0_pay1 (iblk0 V c 0 t) (iblk0 V c 1 t) j
    = Cert.ReferenceIdeal.Read.val_main_v0 (F := Ideal) (V c main_arg0) (V c main_arg5) (((cfg0.win 2).blk t).view.emb j)
  rw [block_product_apply, Cert.ReferenceIdeal.Read.val_main_v0_apply]
  refine Finset.sum_congr rfl fun k _ => ?_
  have hx : iblk0 V c 0 t (blockRowAt j k)
      = V c main_arg0 (Cert.ReferenceIdeal.Read.lidx_main_v0 (((cfg0.win 2).blk t).view.emb j) k) := by
    show V c main_arg0 (((cfg0.win 0).blk t).view.emb (blockRowAt j k)) = _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  have hw : iblk0 V c 1 t (weightAt j k)
      = V c main_arg5 (Cert.ReferenceIdeal.Read.ridx_main_v0 (((cfg0.win 2).blk t).view.emb j) k) := by
    show V c main_arg5 (((cfg0.win 1).blk t).view.emb (weightAt j k)) = _
    refine congrArg (V c main_arg5) (funext fun a => Fin.ext ?_)
    match a with
    | ⟨0, _⟩ => show win0_1.index t (0 : Fin 2) * 256 + 1 * k.val = k.val; omega
    | ⟨1, _⟩ => show win0_1.index t (1 : Fin 2) * 64 + 1 * (j 1).val = win0_2.index t (1 : Fin 2) * 64 + 1 * (j 1).val; omega
  rw [hx, hw]

/-! ## The blocks tile the result -/

theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v0).slice (win0_2.rect t)).set ↔ _
  rw [View.set_slice_whole, Rect.mem_set_unit]
  exact Iff.rfl

/-- Row r of the result is in block r / 5000. -/
theorem cover (i : S100000x64.Idx) :
    ∃ t : Fin cfg0.N, (cfg0.win 2).flush t = true ∧ i ∈ ((cfg0.win 2).blk t).view.set := by
  have h0 : (i 0).val < 100000 := (i 0).isLt
  have h1 : (i 1).val < 64 := (i 1).isLt
  have hN : cfg0.N = 20 := N_0
  have ht : (i 0).val / 5000 < cfg0.N := by rw [hN]; omega
  obtain ⟨-, -, -, -, e4, e5⟩ := idx_facts ⟨(i 0).val / 5000, ht⟩
  have e4' : win0_2.index ⟨(i 0).val / 5000, ht⟩ (0 : Fin 2) = (i 0).val / 5000 := e4
  refine ⟨⟨(i 0).val / 5000, ht⟩, flush0_2 _, ?_⟩
  rw [mem_blk]
  intro a
  match a with
  | ⟨0, _⟩ => show win0_2.index ⟨(i 0).val / 5000, ht⟩ (0 : Fin 2) * 5000 ≤ (i 0).val ∧ (i 0).val < win0_2.index ⟨(i 0).val / 5000, ht⟩ (0 : Fin 2) * 5000 + 5000; omega
  | ⟨1, _⟩ => show win0_2.index ⟨(i 0).val / 5000, ht⟩ (1 : Fin 2) * 64 ≤ (i 1).val ∧ (i 1).val < win0_2.index ⟨(i 0).val / 5000, ht⟩ (1 : Fin 2) * 64 + 64; omega

/-- After the region its result array holds the whole product of its two operand arrays. -/
theorem array_eq (c : Dev nD) :
    (dat0 V c).arrAt 2 cfg0.N = Cert.ReferenceIdeal.Read.val_main_v0 (F := Ideal) (V c main_arg0) (V c main_arg5) :=
  (dat0 V c).arrAt_eq_of_cover 2 _ (fun t _ => flushed_eq V c t) cover

end Cert.KernelIdeal.Product1

end
-- ==== Proof.Decode.lean ====
/-
  The inner-product decoder.

  Region 4 walks two 2002944 × 32 arrays (the gathered endpoint embeddings, each padded with 2944 rows) in 489 blocks of
  4096 rows. At every point the body multiplies the two blocks entry by entry and sums along the 32 lanes into a zero
  accumulator: entry r of what it stores is the sum over k < 32 of a(4096·t + r, k) · b(4096·t + r, k). The blocks tile the
  result, so the result array holds every row's inner product. The program then keeps the leading 2000000 entries. A row
  below 2000000 of a padded array is the row of the unpadded array, so entry e of what is kept is the sum over k of
  zs(e, k) · zd(e, k) — the host's sum along the lanes of the entrywise product from a zero initial value — whatever the
  padding rows hold. Stated for whatever contents the region finds in its buffers when it is entered.
-/
import proofs.«113992_j68779606278430_2_alg».proof.Proof.Gen.KernelIdeal.Frame
import proofs.«113992_j68779606278430_2_alg».proof.Proof.Gen.ReferenceIdeal
import Idealize.ShloMosaic.Lib.Pipeline.Value
import Idealize.ShloMosaic.Lib.ValueIdx
import Idealize.ShloMosaic.Lib.KernelVsHost
import Idealize.ShloMosaic.PureOps.Ideal.Laws

set_option maxRecDepth 16384

noncomputable section

namespace Cert.KernelIdeal.Decode

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-! ## Every row's inner product -/

/-- Row e, lane k of a 2002944 × 32 array. -/
abbrev laneAt (i : S2002944.Idx) (k : Fin 32) : S2002944x32.Idx := fun a => match a with
  | ⟨0, _⟩ => ⟨(i 0).val, (i 0).isLt⟩
  | ⟨1, _⟩ => ⟨k.val, k.isLt⟩

/-- Row by row, the sum over the 32 lanes of the products of two arrays' entries. -/
def rowDot (a b : S2002944x32.Idx → EReal) : S2002944.Idx → EReal :=
  fun i => ∑ k : Fin 32, a (laneAt i k) * b (laneAt i k)

theorem rowDot_apply (a b : S2002944x32.Idx → EReal) (i : S2002944.Idx) :
    rowDot a b i = ∑ k : Fin 32, a (laneAt i k) * b (laneAt i k) := rfl

/-! ## A block's inner products at an entry -/

abbrev laneAtBlk (j : S4096.Idx) (k : Fin 32) : S4096x32.Idx := fun a => match a with
  | ⟨0, _⟩ => ⟨(j 0).val, (j 0).isLt⟩
  | ⟨1, _⟩ => ⟨k.val, k.isLt⟩

theorem block_apply (x0 x1 : Vec Ideal S4096x32 .f32) (j : S4096.Idx) :
    k4_pay1 (F := Ideal) x0 x1 j = ∑ k : Fin 32, (x0 (laneAtBlk j k) : EReal) * (x1 (laneAtBlk j k) : EReal) := by
  unfold k4_pay1
  simp only [shapeCast_self]
  refine (Ideal.multiReduction_add_single (mulf x0 x1) 0x00000000#32 reduces_S4096x32_S4096 (.inl rfl) rfl j).trans ?_
  refine Finset.sum_congr rfl fun k _ => ?_
  have e : reduces_S4096x32_S4096.lift j k = laneAtBlk j k := funext fun a => Fin.ext (by
    match a with
    | ⟨0, _⟩ => rfl
    | ⟨1, _⟩ => rfl)
  rw [e]
  rfl

/-! ## The printed index maps over the grid -/

theorem idx_facts : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 1) = t.val :=
  (by decide +kernel : ∀ t : Fin grid4.N, _)

/-! ## What a point writes back -/

theorem flushed_eq (c : Dev nD) (t : Fin cfg4.N) :
    (dat4 V c).flushed 2 t = ((cfg4.win 2).blk t).view.read (Elt Ideal) (rowDot (V c main_v50) (V c main_v51)) := by
  show (cfg4.win 2).cut (grid4.coords t) ((dat4 V c).after 2 t) = _
  rw [after4_2]
  unfold out4_2
  rw [View.canon_unit_zero hz1]
  simp only [View.ld_unit_zero (S := S4096x32) hz2]
  obtain ⟨e0, e1, e2, e3, e4⟩ := idx_facts t
  funext j
  show k4_pay1 (iblk4 V c 0 t) (iblk4 V c 1 t) j = rowDot (V c main_v50) (V c main_v51) (((cfg4.win 2).blk t).view.emb j)
  rw [block_apply, rowDot_apply]
  refine Finset.sum_congr rfl fun k _ => ?_
  have ha : iblk4 V c 0 t (laneAtBlk j k) = V c main_v50 (laneAt (((cfg4.win 2).blk t).view.emb j) k) := by
    show V c main_v50 (((cfg4.win 0).blk t).view.emb (laneAtBlk j k)) = _
    refine congrArg (V c main_v50) (funext fun a => Fin.ext ?_)
    match a with
    | ⟨0, _⟩ => show win4_0.index t (0 : Fin 2) * 4096 + 1 * (j 0).val = win4_2.index t (0 : Fin 1) * 4096 + 1 * (j 0).val; omega
    | ⟨1, _⟩ => show win4_0.index t (1 : Fin 2) * 32 + 1 * k.val = k.val; omega
  have hb : iblk4 V c 1 t (laneAtBlk j k) = V c main_v51 (laneAt (((cfg4.win 2).blk t).view.emb j) k) := by
    show V c main_v51 (((cfg4.win 1).blk t).view.emb (laneAtBlk j k)) = _
    refine congrArg (V c main_v51) (funext fun a => Fin.ext ?_)
    match a with
    | ⟨0, _⟩ => show win4_1.index t (0 : Fin 2) * 4096 + 1 * (j 0).val = win4_2.index t (0 : Fin 1) * 4096 + 1 * (j 0).val; omega
    | ⟨1, _⟩ => show win4_1.index t (1 : Fin 2) * 32 + 1 * k.val = k.val; omega
  rw [ha, hb]

/-! ## The blocks tile the result -/

theorem mem_blk (t : Fin cfg4.N) (i : S2002944.Idx) :
    i ∈ ((cfg4.win 2).blk t).view.set ↔ ∀ a : Fin 1, win4_2.index t a * S4096.size a ≤ (i a).val ∧ (i a).val < win4_2.index t a * S4096.size a + S4096.size a := by
  show i ∈ ((View.whole main_v52).slice (win4_2.rect t)).set ↔ _
  rw [View.set_slice_whole, Rect.mem_set_unit]
  exact Iff.rfl

/-- Entry e of the result is in block e / 4096. -/
theorem cover (i : S2002944.Idx) :
    ∃ t : Fin cfg4.N, (cfg4.win 2).flush t = true ∧ i ∈ ((cfg4.win 2).blk t).view.set := by
  have h0 : (i 0).val < 2002944 := (i 0).isLt
  have hN : cfg4.N = 489 := N_4
  have ht : (i 0).val / 4096 < cfg4.N := by rw [hN]; omega
  obtain ⟨-, -, -, -, e4⟩ := idx_facts ⟨(i 0).val / 4096, ht⟩
  have e4' : win4_2.index ⟨(i 0).val / 4096, ht⟩ (0 : Fin 1) = (i 0).val / 4096 := e4
  refine ⟨⟨(i 0).val / 4096, ht⟩, flush4_2 _, ?_⟩
  rw [mem_blk]
  intro a
  match a with
  | ⟨0, _⟩ => show win4_2.index ⟨(i 0).val / 4096, ht⟩ (0 : Fin 1) * 4096 ≤ (i 0).val ∧ (i 0).val < win4_2.index ⟨(i 0).val / 4096, ht⟩ (0 : Fin 1) * 4096 + 4096; omega

/-- After the region its result array holds every row's inner product of its two operand arrays. -/
theorem array_eq (c : Dev nD) :
    (dat4 V c).arrAt 2 cfg4.N = rowDot (V c main_v50) (V c main_v51) :=
  (dat4 V c).arrAt_eq_of_cover 2 _ (fun t _ => flushed_eq V c t) cover

/-! ## The leading 2000000 inner products -/

/-- Entry e < 2000000 as an entry of the padded result. -/
abbrev wide (i : S2000000.Idx) : S2002944.Idx := fun a => match a with
  | ⟨0, _⟩ => ⟨(i 0).val, Nat.lt_trans (i 0).isLt (by decide : (2000000 : Nat) < 2002944)⟩

/-- Row e, lane k of a 2000000 × 32 array. -/
abbrev laneAtU (i : Cert.ReferenceIdeal.S2000000.Idx) (k : Fin 32) : Cert.ReferenceIdeal.S2000000x32.Idx := fun a => match a with
  | ⟨0, _⟩ => ⟨(i 0).val, (i 0).isLt⟩
  | ⟨1, _⟩ => ⟨k.val, k.isLt⟩

/-- The host's sum along the lanes from a zero initial value, at entry e. -/
theorem hostRowSum_apply (y : FVec Ideal Cert.ReferenceIdeal.S2000000x32 .f32) (i : Cert.ReferenceIdeal.S2000000.Idx) :
    Host.reduceAdd (F := Ideal) y (constant (F := Ideal) Cert.ReferenceIdeal.S_ .f32 0x00000000#32) Cert.ReferenceIdeal.Gen.reducesTo_S2000000x32_S2000000_d1 Cert.ReferenceIdeal.Gen.h_S_ i
      = ∑ k : Fin 32, (y (laneAtU i k) : EReal) := by
  simp only [Host.reduceAdd, Ideal.hostReduceAdd_def]
  rw [Ideal.hostReduceAdd_single Cert.ReferenceIdeal.Gen.reducesTo_S2000000x32_S2000000_d1 (by decide)]
  refine (congrArg (· + _) (show (constant (F := Ideal) Cert.ReferenceIdeal.S_ .f32 0x00000000#32 (Shape.Idx.first Cert.ReferenceIdeal.Gen.h_S_) : EReal) = 0 from Ideal.ofBits_zero_f32)).trans ?_
  rw [zero_add]
  refine Finset.sum_congr rfl fun k _ => ?_
  exact congrArg y (funext fun a => Fin.ext (by match a with | ⟨0, _⟩ => rfl | ⟨1, _⟩ => rfl))

/-- The leading 2000000 inner products of two padded arrays are the host's lane sums of the unpadded arrays' product,
    whatever the padding rows hold. -/
theorem sliced (zs zd : FVec Ideal S2000000x32 .f32) (v v' : S_.Idx → Elt Ideal .f32) :
    extractStridedSlice S2000000 ![0]
        (rowDot (pad S2002944x32 ![0, 0] ![2944, 0] ![0, 0] zs v pads_S2000000x32_S2002944x32_029440_000 h_S_)
                (pad S2002944x32 ![0, 0] ![2944, 0] ![0, 0] zd v' pads_S2000000x32_S2002944x32_029440_000 h_S_))
        slices_S2002944_S2000000_0
      = Host.reduceAdd (F := Ideal) (mulf (F := Ideal) (φ := .f32) zs zd) (constant (F := Ideal) Cert.ReferenceIdeal.S_ .f32 0x00000000#32)
          Cert.ReferenceIdeal.Gen.reducesTo_S2000000x32_S2000000_d1 Cert.ReferenceIdeal.Gen.h_S_ := by
  funext i
  refine (extractStridedSlice_apply ![0] _ slices_S2002944_S2000000_0 i (wide i) (by
    intro a
    match a with
    | ⟨0, _⟩ => show (i 0).val = 0 + (i 0).val; omega)).trans ?_
  rw [rowDot_apply]
  refine Eq.symm ((hostRowSum_apply (mulf (F := Ideal) (φ := .f32) zs zd) i).trans ?_)
  refine Finset.sum_congr rfl fun k _ => ?_
  have hs : pad S2002944x32 ![0, 0] ![2944, 0] ![0, 0] zs v pads_S2000000x32_S2002944x32_029440_000 h_S_ (laneAt (wide i) k) = zs (laneAtU i k) :=
    pad_apply_of_inside _ _ _ zs v pads_S2000000x32_S2002944x32_029440_000 h_S_ _ (laneAtU i k) (by
      intro a
      match a with
      | ⟨0, _⟩ => show (i 0).val = 0 + (i 0).val * (0 + 1); omega
      | ⟨1, _⟩ => show k.val = 0 + k.val * (0 + 1); omega)
  have hd : pad S2002944x32 ![0, 0] ![2944, 0] ![0, 0] zd v' pads_S2000000x32_S2002944x32_029440_000 h_S_ (laneAt (wide i) k) = zd (laneAtU i k) :=
    pad_apply_of_inside _ _ _ zd v' pads_S2000000x32_S2002944x32_029440_000 h_S_ _ (laneAtU i k) (by
      intro a
      match a with
      | ⟨0, _⟩ => show (i 0).val = 0 + (i 0).val * (0 + 1); omega
      | ⟨1, _⟩ => show k.val = 0 + k.val * (0 + 1); omega)
  rw [hs, hd]
  rfl

end Cert.KernelIdeal.Decode

end
-- ==== Proof.Fold.lean ====
/-
  The program's result, read off the boundaries between its segments.

  The generated frame names the buffer contents at each boundary between two segments (`Gen.W1` … `Gen.W12`): after a
  region, its arrays at what its write-backs leave and every other buffer as before; after a stretch of host operations,
  the fold of those operations. Reading the fold from the first boundary on: no segment writes an argument, so each
  argument reads as launched wherever it is read; region 0 leaves x · W1; the first stretch of host operations aggregates
  it over the edges and lays the first bias out as a row; region 1 adds the bias and rectifies; region 2 multiplies by W2;
  the second stretch aggregates again and lays out the second bias; region 3 adds it; the third stretch gathers the pairs'
  endpoint embeddings and pads both with 2944 rows; region 4 takes every row's inner product; the last host operation
  keeps the leading 2000000. Composed, the result buffer ends at the score function of the nine arguments.
-/
import proofs.«113992_j68779606278430_2_alg».proof.Proof.Gen.KernelIdeal.Frame
import proofs.«113992_j68779606278430_2_alg».proof.Proof.Product1
import proofs.«113992_j68779606278430_2_alg».proof.Proof.Product2
import proofs.«113992_j68779606278430_2_alg».proof.Proof.Bias1
import proofs.«113992_j68779606278430_2_alg».proof.Proof.Bias2
import proofs.«113992_j68779606278430_2_alg».proof.Proof.Decode
import proofs.«113992_j68779606278430_2_alg».proof.Proof.Spec
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The arguments, wherever a segment reads them -/

theorem at1_arg1 : W1 m ρ c (Proc.devRef .tc main_arg1) = (m ((c : Thread nD τ).loc main_arg1)) :=
  (W1_of_ne m ρ c main_arg1 (by decide)).trans rfl
theorem at1_arg2 : W1 m ρ c (Proc.devRef .tc main_arg2) = (m ((c : Thread nD τ).loc main_arg2)) :=
  (W1_of_ne m ρ c main_arg2 (by decide)).trans rfl
theorem at1_arg3 : W1 m ρ c (Proc.devRef .tc main_arg3) = (m ((c : Thread nD τ).loc main_arg3)) :=
  (W1_of_ne m ρ c main_arg3 (by decide)).trans rfl
theorem at1_arg4 : W1 m ρ c (Proc.devRef .tc main_arg4) = (m ((c : Thread nD τ).loc main_arg4)) :=
  (W1_of_ne m ρ c main_arg4 (by decide)).trans rfl
theorem at1_arg6 : W1 m ρ c (Proc.devRef .tc main_arg6) = (m ((c : Thread nD τ).loc main_arg6)) :=
  (W1_of_ne m ρ c main_arg6 (by decide)).trans rfl
theorem at1_arg7 : W1 m ρ c (Proc.devRef .tc main_arg7) = (m ((c : Thread nD τ).loc main_arg7)) :=
  (W1_of_ne m ρ c main_arg7 (by decide)).trans rfl
theorem at1_arg8 : W1 m ρ c (Proc.devRef .tc main_arg8) = (m ((c : Thread nD τ).loc main_arg8)) :=
  (W1_of_ne m ρ c main_arg8 (by decide)).trans rfl
theorem at2_arg1 : W2 m ρ c (Proc.devRef .tc main_arg1) = (m ((c : Thread nD τ).loc main_arg1)) := by
  refine Eq.trans ?_ (at1_arg1 m ρ c)
  show StableHlo.after hostOps1 (W1 m ρ c) (Proc.devRef .tc main_arg1) = _
  dsimp only [hostOps1]
  after_results
theorem at2_arg2 : W2 m ρ c (Proc.devRef .tc main_arg2) = (m ((c : Thread nD τ).loc main_arg2)) := by
  refine Eq.trans ?_ (at1_arg2 m ρ c)
  show StableHlo.after hostOps1 (W1 m ρ c) (Proc.devRef .tc main_arg2) = _
  dsimp only [hostOps1]
  after_results
theorem at2_arg3 : W2 m ρ c (Proc.devRef .tc main_arg3) = (m ((c : Thread nD τ).loc main_arg3)) := by
  refine Eq.trans ?_ (at1_arg3 m ρ c)
  show StableHlo.after hostOps1 (W1 m ρ c) (Proc.devRef .tc main_arg3) = _
  dsimp only [hostOps1]
  after_results
theorem at2_arg4 : W2 m ρ c (Proc.devRef .tc main_arg4) = (m ((c : Thread nD τ).loc main_arg4)) := by
  refine Eq.trans ?_ (at1_arg4 m ρ c)
  show StableHlo.after hostOps1 (W1 m ρ c) (Proc.devRef .tc main_arg4) = _
  dsimp only [hostOps1]
  after_results
theorem at2_arg7 : W2 m ρ c (Proc.devRef .tc main_arg7) = (m ((c : Thread nD τ).loc main_arg7)) := by
  refine Eq.trans ?_ (at1_arg7 m ρ c)
  show StableHlo.after hostOps1 (W1 m ρ c) (Proc.devRef .tc main_arg7) = _
  dsimp only [hostOps1]
  after_results
theorem at2_arg8 : W2 m ρ c (Proc.devRef .tc main_arg8) = (m ((c : Thread nD τ).loc main_arg8)) := by
  refine Eq.trans ?_ (at1_arg8 m ρ c)
  show StableHlo.after hostOps1 (W1 m ρ c) (Proc.devRef .tc main_arg8) = _
  dsimp only [hostOps1]
  after_results
theorem at3_arg1 : W3 m ρ c (Proc.devRef .tc main_arg1) = (m ((c : Thread nD τ).loc main_arg1)) :=
  (W3_of_ne m ρ c main_arg1 (by decide)).trans (at2_arg1 m ρ c)
theorem at3_arg2 : W3 m ρ c (Proc.devRef .tc main_arg2) = (m ((c : Thread nD τ).loc main_arg2)) :=
  (W3_of_ne m ρ c main_arg2 (by decide)).trans (at2_arg2 m ρ c)
theorem at3_arg3 : W3 m ρ c (Proc.devRef .tc main_arg3) = (m ((c : Thread nD τ).loc main_arg3)) :=
  (W3_of_ne m ρ c main_arg3 (by decide)).trans (at2_arg3 m ρ c)
theorem at3_arg4 : W3 m ρ c (Proc.devRef .tc main_arg4) = (m ((c : Thread nD τ).loc main_arg4)) :=
  (W3_of_ne m ρ c main_arg4 (by decide)).trans (at2_arg4 m ρ c)
theorem at3_arg7 : W3 m ρ c (Proc.devRef .tc main_arg7) = (m ((c : Thread nD τ).loc main_arg7)) :=
  (W3_of_ne m ρ c main_arg7 (by decide)).trans (at2_arg7 m ρ c)
theorem at3_arg8 : W3 m ρ c (Proc.devRef .tc main_arg8) = (m ((c : Thread nD τ).loc main_arg8)) :=
  (W3_of_ne m ρ c main_arg8 (by decide)).trans (at2_arg8 m ρ c)
theorem at4_arg1 : W4 m ρ c (Proc.devRef .tc main_arg1) = (m ((c : Thread nD τ).loc main_arg1)) :=
  (W4_of_ne m ρ c main_arg1 (by decide)).trans (at3_arg1 m ρ c)
theorem at4_arg2 : W4 m ρ c (Proc.devRef .tc main_arg2) = (m ((c : Thread nD τ).loc main_arg2)) :=
  (W4_of_ne m ρ c main_arg2 (by decide)).trans (at3_arg2 m ρ c)
theorem at4_arg3 : W4 m ρ c (Proc.devRef .tc main_arg3) = (m ((c : Thread nD τ).loc main_arg3)) :=
  (W4_of_ne m ρ c main_arg3 (by decide)).trans (at3_arg3 m ρ c)
theorem at4_arg4 : W4 m ρ c (Proc.devRef .tc main_arg4) = (m ((c : Thread nD τ).loc main_arg4)) :=
  (W4_of_ne m ρ c main_arg4 (by decide)).trans (at3_arg4 m ρ c)
theorem at4_arg8 : W4 m ρ c (Proc.devRef .tc main_arg8) = (m ((c : Thread nD τ).loc main_arg8)) :=
  (W4_of_ne m ρ c main_arg8 (by decide)).trans (at3_arg8 m ρ c)
theorem at5_arg4 : W5 m ρ c (Proc.devRef .tc main_arg4) = (m ((c : Thread nD τ).loc main_arg4)) := by
  refine Eq.trans ?_ (at4_arg4 m ρ c)
  show StableHlo.after hostOps3 (W4 m ρ c) (Proc.devRef .tc main_arg4) = _
  dsimp only [hostOps3]
  after_results
theorem at6_arg4 : W6 m ρ c (Proc.devRef .tc main_arg4) = (m ((c : Thread nD τ).loc main_arg4)) :=
  (W6_of_ne m ρ c main_arg4 (by decide)).trans (at5_arg4 m ρ c)

/-! ## The first layer -/

/-- After region 0: x · W1. -/
theorem at1_v0 : W1 m ρ c (Proc.devRef .tc main_v0) = Cert.ReferenceIdeal.Read.val_main_v0 (F := Ideal) (m ((c : Thread nD τ).loc main_arg0)) (m ((c : Thread nD τ).loc main_arg5)) :=
  (W1_arr m ρ c 2).trans (Product1.array_eq (V0 m ρ) c)

set_option maxHeartbeats 2000000 in
/-- After the first stretch: the aggregation of x · W1 over the edges. -/
theorem at2_v13 : W2 m ρ c (Proc.devRef .tc main_v13) = Cert.ReferenceIdeal.Spec.aggregate64 (F := Ideal) (Cert.ReferenceIdeal.Read.val_main_v0 (F := Ideal) (m ((c : Thread nD τ).loc main_arg0)) (m ((c : Thread nD τ).loc main_arg5))) (m ((c : Thread nD τ).loc main_arg1)) (m ((c : Thread nD τ).loc main_arg2)) (m ((c : Thread nD τ).loc main_arg3)) := by
  show StableHlo.after hostOps1 (W1 m ρ c) (Proc.devRef .tc main_v13) = _
  dsimp only [hostOps1]
  after_results_simp
  rw [at1_arg1 m ρ c, at1_arg2 m ρ c, at1_arg3 m ρ c, at1_v0 m ρ c]
  rfl

/-- After the first stretch: the first bias as one row. -/
theorem at2_v14 : W2 m ρ c (Proc.devRef .tc main_v14) = shapeCast S1x64 (m ((c : Thread nD τ).loc main_arg6)) shapeCasts_S64_S1x64 := by
  show StableHlo.after hostOps1 (W1 m ρ c) (Proc.devRef .tc main_v14) = _
  dsimp only [hostOps1]
  after_results
  rw [at1_arg6 m ρ c]
  rfl

/-- After region 1: the first layer's output. -/
theorem at3_v15 : W3 m ρ c (Proc.devRef .tc main_v15) = Cert.ReferenceIdeal.Spec.layer1 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) := by
  refine (W3_arr m ρ c 2).trans ((Bias1.array_eq (V2 m ρ) c).trans ?_)
  show Bias1.biasRelu (W2 m ρ c (Proc.devRef .tc main_v13)) (W2 m ρ c (Proc.devRef .tc main_v14)) = _
  rw [at2_v13 m ρ c, at2_v14 m ρ c, Bias1.reshape_row]
  rfl

/-! ## The second layer -/

/-- After region 2: z1 · W2. -/
theorem at4_v16 : W4 m ρ c (Proc.devRef .tc main_v16) = Product2.whole (Cert.ReferenceIdeal.Spec.layer1 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6))) (m ((c : Thread nD τ).loc main_arg7)) := by
  refine (W4_arr m ρ c 2).trans ((Product2.array_eq (V3 m ρ) c).trans ?_)
  show Product2.whole (W3 m ρ c (Proc.devRef .tc main_v15)) (W3 m ρ c (Proc.devRef .tc main_arg7)) = _
  rw [at3_v15 m ρ c, at3_arg7 m ρ c]

set_option maxHeartbeats 2000000 in
/-- After the second stretch: the aggregation of z1 · W2 over the edges. -/
theorem at5_v29 : W5 m ρ c (Proc.devRef .tc main_v29) = Cert.ReferenceIdeal.Spec.aggregate32 (F := Ideal) (Product2.whole (Cert.ReferenceIdeal.Spec.layer1 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6))) (m ((c : Thread nD τ).loc main_arg7))) (m ((c : Thread nD τ).loc main_arg1)) (m ((c : Thread nD τ).loc main_arg2)) (m ((c : Thread nD τ).loc main_arg3)) := by
  show StableHlo.after hostOps3 (W4 m ρ c) (Proc.devRef .tc main_v29) = _
  dsimp only [hostOps3]
  after_results_simp
  rw [at4_arg1 m ρ c, at4_arg2 m ρ c, at4_arg3 m ρ c, at4_v16 m ρ c]
  rfl

/-- After the second stretch: the second bias as one row. -/
theorem at5_v30 : W5 m ρ c (Proc.devRef .tc main_v30) = shapeCast S1x32 (m ((c : Thread nD τ).loc main_arg8)) shapeCasts_S32_S1x32 := by
  show StableHlo.after hostOps3 (W4 m ρ c) (Proc.devRef .tc main_v30) = _
  dsimp only [hostOps3]
  after_results
  rw [at4_arg8 m ρ c]
  rfl

/-- After region 3: the node embeddings. -/
theorem at6_v31 : W6 m ρ c (Proc.devRef .tc main_v31) = Cert.ReferenceIdeal.Spec.layer2 (Cert.ReferenceIdeal.Spec.layer1 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6))) (m ((c : Thread nD τ).loc main_arg1)) (m ((c : Thread nD τ).loc main_arg2)) (m ((c : Thread nD τ).loc main_arg3)) (m ((c : Thread nD τ).loc main_arg7)) (m ((c : Thread nD τ).loc main_arg8)) := by
  refine (W6_arr m ρ c 2).trans ((Bias2.array_eq (V5 m ρ) c).trans ?_)
  show Bias2.biasAdd (W5 m ρ c (Proc.devRef .tc main_v29)) (W5 m ρ c (Proc.devRef .tc main_v30)) = _
  rw [at5_v29 m ρ c, at5_v30 m ρ c, Bias2.reshape_row]
  rfl

/-! ## The decoder -/

/-- After the gathers of the third stretch: the first endpoints' embeddings. -/
theorem at7_v42 : W7 m ρ c (Proc.devRef .tc main_v42) = (Cert.ReferenceIdeal.Spec.firstEnds (F := Ideal) (Cert.ReferenceIdeal.Spec.layer2 (Cert.ReferenceIdeal.Spec.layer1 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6))) (m ((c : Thread nD τ).loc main_arg1)) (m ((c : Thread nD τ).loc main_arg2)) (m ((c : Thread nD τ).loc main_arg3)) (m ((c : Thread nD τ).loc main_arg7)) (m ((c : Thread nD τ).loc main_arg8))) (m ((c : Thread nD τ).loc main_arg4))) := by
  show StableHlo.after hostOps4 (W6 m ρ c) (Proc.devRef .tc main_v42) = _
  dsimp only [hostOps4]
  after_results_simp
  rw [at6_arg4 m ρ c, at6_v31 m ρ c]
  rfl

/-- After the gathers of the third stretch: the second endpoints' embeddings. -/
theorem at7_v49 : W7 m ρ c (Proc.devRef .tc main_v49) = (Cert.ReferenceIdeal.Spec.secondEnds (F := Ideal) (Cert.ReferenceIdeal.Spec.layer2 (Cert.ReferenceIdeal.Spec.layer1 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6))) (m ((c : Thread nD τ).loc main_arg1)) (m ((c : Thread nD τ).loc main_arg2)) (m ((c : Thread nD τ).loc main_arg3)) (m ((c : Thread nD τ).loc main_arg7)) (m ((c : Thread nD τ).loc main_arg8))) (m ((c : Thread nD τ).loc main_arg4))) := by
  show StableHlo.after hostOps4 (W6 m ρ c) (Proc.devRef .tc main_v49) = _
  dsimp only [hostOps4]
  after_results_simp
  rw [at6_arg4 m ρ c, at6_v31 m ρ c]
  rfl

/-- The first padding: 2944 rows after the first endpoints' embeddings. -/
theorem at8_v50 : W8 m ρ c (Proc.devRef .tc main_v50) = (pad S2002944x32 ![0, 0] ![2944, 0] ![0, 0] (Cert.ReferenceIdeal.Spec.firstEnds (F := Ideal) (Cert.ReferenceIdeal.Spec.layer2 (Cert.ReferenceIdeal.Spec.layer1 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6))) (m ((c : Thread nD τ).loc main_arg1)) (m ((c : Thread nD τ).loc main_arg2)) (m ((c : Thread nD τ).loc main_arg3)) (m ((c : Thread nD τ).loc main_arg7)) (m ((c : Thread nD τ).loc main_arg8))) (m ((c : Thread nD τ).loc main_arg4))) (sitofp (F := Ideal) .f32 (W7 m ρ c (Proc.devRef .tc main_c_8))) pads_S2000000x32_S2002944x32_029440_000 h_S_) := by
  refine (show W8 m ρ c (Proc.devRef .tc main_v50)
      = (pad S2002944x32 ![0, 0] ![2944, 0] ![0, 0] (W7 m ρ c (Proc.devRef .tc main_v42)) (sitofp (F := Ideal) .f32 (W7 m ρ c (Proc.devRef .tc main_c_8))) pads_S2000000x32_S2002944x32_029440_000 h_S_) from rfl).trans ?_
  rw [at7_v42 m ρ c]

/-- The padded first endpoints reach region 4 untouched. -/
theorem at10_v50 : W10 m ρ c (Proc.devRef .tc main_v50) = (pad S2002944x32 ![0, 0] ![2944, 0] ![0, 0] (Cert.ReferenceIdeal.Spec.firstEnds (F := Ideal) (Cert.ReferenceIdeal.Spec.layer2 (Cert.ReferenceIdeal.Spec.layer1 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6))) (m ((c : Thread nD τ).loc main_arg1)) (m ((c : Thread nD τ).loc main_arg2)) (m ((c : Thread nD τ).loc main_arg3)) (m ((c : Thread nD τ).loc main_arg7)) (m ((c : Thread nD τ).loc main_arg8))) (m ((c : Thread nD τ).loc main_arg4))) (sitofp (F := Ideal) .f32 (W7 m ρ c (Proc.devRef .tc main_c_8))) pads_S2000000x32_S2002944x32_029440_000 h_S_) := by
  refine Eq.trans ?_ (at8_v50 m ρ c)
  show StableHlo.after hostOps4_3 (StableHlo.after hostOps4_2 (W8 m ρ c)) (Proc.devRef .tc main_v50) = _
  dsimp only [hostOps4_2, hostOps4_3]
  after_results

/-- The second endpoints' embeddings reach the second padding untouched. -/
theorem at9_v49 : W9 m ρ c (Proc.devRef .tc main_v49) = (Cert.ReferenceIdeal.Spec.secondEnds (F := Ideal) (Cert.ReferenceIdeal.Spec.layer2 (Cert.ReferenceIdeal.Spec.layer1 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6))) (m ((c : Thread nD τ).loc main_arg1)) (m ((c : Thread nD τ).loc main_arg2)) (m ((c : Thread nD τ).loc main_arg3)) (m ((c : Thread nD τ).loc main_arg7)) (m ((c : Thread nD τ).loc main_arg8))) (m ((c : Thread nD τ).loc main_arg4))) := by
  refine Eq.trans ?_ (at7_v49 m ρ c)
  show StableHlo.after hostOps4_2 (StableHlo.after hostOps4_1 (W7 m ρ c)) (Proc.devRef .tc main_v49) = _
  dsimp only [hostOps4_1, hostOps4_2]
  after_results

/-- The second padding: 2944 rows after the second endpoints' embeddings. -/
theorem at10_v51 : W10 m ρ c (Proc.devRef .tc main_v51) = (pad S2002944x32 ![0, 0] ![2944, 0] ![0, 0] (Cert.ReferenceIdeal.Spec.secondEnds (F := Ideal) (Cert.ReferenceIdeal.Spec.layer2 (Cert.ReferenceIdeal.Spec.layer1 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6))) (m ((c : Thread nD τ).loc main_arg1)) (m ((c : Thread nD τ).loc main_arg2)) (m ((c : Thread nD τ).loc main_arg3)) (m ((c : Thread nD τ).loc main_arg7)) (m ((c : Thread nD τ).loc main_arg8))) (m ((c : Thread nD τ).loc main_arg4))) (sitofp (F := Ideal) .f32 (W9 m ρ c (Proc.devRef .tc main_c_9))) pads_S2000000x32_S2002944x32_029440_000 h_S_) := by
  refine (show W10 m ρ c (Proc.devRef .tc main_v51)
      = (pad S2002944x32 ![0, 0] ![2944, 0] ![0, 0] (W9 m ρ c (Proc.devRef .tc main_v49)) (sitofp (F := Ideal) .f32 (W9 m ρ c (Proc.devRef .tc main_c_9))) pads_S2000000x32_S2002944x32_029440_000 h_S_) from rfl).trans ?_
  rw [at9_v49 m ρ c]

/-- After region 4: every row's inner product of the two padded arrays. -/
theorem at11_v52 : W11 m ρ c (Proc.devRef .tc main_v52)
    = Decode.rowDot (pad S2002944x32 ![0, 0] ![2944, 0] ![0, 0] (Cert.ReferenceIdeal.Spec.firstEnds (F := Ideal) (Cert.ReferenceIdeal.Spec.layer2 (Cert.ReferenceIdeal.Spec.layer1 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6))) (m ((c : Thread nD τ).loc main_arg1)) (m ((c : Thread nD τ).loc main_arg2)) (m ((c : Thread nD τ).loc main_arg3)) (m ((c : Thread nD τ).loc main_arg7)) (m ((c : Thread nD τ).loc main_arg8))) (m ((c : Thread nD τ).loc main_arg4))) (sitofp (F := Ideal) .f32 (W7 m ρ c (Proc.devRef .tc main_c_8))) pads_S2000000x32_S2002944x32_029440_000 h_S_) (pad S2002944x32 ![0, 0] ![2944, 0] ![0, 0] (Cert.ReferenceIdeal.Spec.secondEnds (F := Ideal) (Cert.ReferenceIdeal.Spec.layer2 (Cert.ReferenceIdeal.Spec.layer1 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6))) (m ((c : Thread nD τ).loc main_arg1)) (m ((c : Thread nD τ).loc main_arg2)) (m ((c : Thread nD τ).loc main_arg3)) (m ((c : Thread nD τ).loc main_arg7)) (m ((c : Thread nD τ).loc main_arg8))) (m ((c : Thread nD τ).loc main_arg4))) (sitofp (F := Ideal) .f32 (W9 m ρ c (Proc.devRef .tc main_c_9))) pads_S2000000x32_S2002944x32_029440_000 h_S_) := by
  refine (W11_arr m ρ c 2).trans ((Decode.array_eq (V10 m ρ) c).trans ?_)
  show Decode.rowDot (W10 m ρ c (Proc.devRef .tc main_v50)) (W10 m ρ c (Proc.devRef .tc main_v51)) = _
  rw [at10_v50 m ρ c, at10_v51 m ρ c]

/-- At the last boundary the result buffer holds the score function of the nine arguments. -/
theorem result_eq : W12 m ρ c (Proc.devRef .tc main_v53)
    = Cert.ReferenceIdeal.Spec.scores (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps5 (W11 m ρ c) (Proc.devRef .tc main_v53) = _
  dsimp only [hostOps5]
  after_results
  rw [at11_v52 m ρ c]
  exact (Decode.sliced _ _ _ _).trans rfl

end Cert.KernelIdeal.Fold

end
-- ==== Proof.lean ====
/-
  A two-layer graph convolution with an inner-product decoder: the pipelined program against its plain reference, on the
  extended reals.

  Both programs compute the scores
    score(e) = Σ over k < 32 of z2(u(e), k) · z2(v(e), k),   z2 = A (max (A (x W1) + b1, 0) W2) + b2,
  where A is the sparse aggregation over the adjacency's edges (gather the source rows, scale by the edge weights,
  scatter-add at the destination rows) and (u, v) runs over the 2000000 pairs of the edge index. The pipelined program
  computes the two dense products, the two bias steps and the decoder's lane sums in five regions that walk their arrays
  block by block, with the aggregation and the endpoint gathers as host operations between them; the reference computes
  everything as host operations. On the extended reals a block of a product is the block of the whole product, a bias
  added to a block of rows is the bias added to the rows, and a lane sum into a zero accumulator over zero-padded rows
  that are then cut off is the host's lane sum from zero: each is a sum of the same terms, so no law of the extended
  reals beyond 0 + a = a is used and the inputs' finiteness is never needed.

  The frames of the two pipelined programs and the run of the reference are generated. `WholeRun` keeps the result buffer in the
  pipelined program's run; `Product1`, `Bias1`, `Product2`, `Bias2` and `Decode` say what each region leaves in its result
  array; `Spec` names the score function and shows the reference's result is it; `Fold` reads the pipelined program's
  result off the boundaries between its segments. The rewrite ledger of the idealization is empty, so `preserves` asks nothing.
-/
import proofs.«113992_j68779606278430_2_alg».proof.Defs
import proofs.«113992_j68779606278430_2_alg».proof.Proof.Gen.Kernel
import proofs.«113992_j68779606278430_2_alg».proof.Proof.Gen.Kernel.Skeleton
import proofs.«113992_j68779606278430_2_alg».proof.Proof.Gen.Kernel.Launch
import proofs.«113992_j68779606278430_2_alg».proof.Proof.Gen.Kernel.Points
import proofs.«113992_j68779606278430_2_alg».proof.Proof.Gen.Kernel.Frame
import proofs.«113992_j68779606278430_2_alg».proof.Proof.Gen.KernelIdeal
import proofs.«113992_j68779606278430_2_alg».proof.Proof.Gen.KernelIdeal.Skeleton
import proofs.«113992_j68779606278430_2_alg».proof.Proof.Gen.KernelIdeal.Launch
import proofs.«113992_j68779606278430_2_alg».proof.Proof.Gen.KernelIdeal.Points
import proofs.«113992_j68779606278430_2_alg».proof.Proof.Gen.KernelIdeal.Frame
import proofs.«113992_j68779606278430_2_alg».proof.Proof.Gen.ReferenceIdeal
import proofs.«113992_j68779606278430_2_alg».proof.Proof.Gen.Pre_finite_inputs
import proofs.«113992_j68779606278430_2_alg».proof.Proof.Gen.ReferenceIdeal.Run
import proofs.«113992_j68779606278430_2_alg».proof.Proof.Gen.ReferenceIdeal.Read
import proofs.«113992_j68779606278430_2_alg».proof.Proof.WholeRun
import proofs.«113992_j68779606278430_2_alg».proof.Proof.Spec
import proofs.«113992_j68779606278430_2_alg».proof.Proof.Fold
import Idealize.ShloMosaic.Adequacy
import Idealize.ShloMosaic.Init

noncomputable section

namespace Cert.Proof

open Idealize.ShloMosaic Idealize.SL.Sem

/-- The word-level program runs, faults nowhere and leaves its arguments as launched. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the nine arguments both programs end with the score function of those arguments in
    their result buffers, and the arguments unchanged. -/
theorem algebraic : Cert.algebraic_KernelIdeal_ReferenceIdeal := by
  intro m ρ m' ρ' _ hagree
  refine ⟨fun c => Cert.ReferenceIdeal.Spec.scores (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono (fun r h c => ⟨(h c).1.trans (Cert.KernelIdeal.Fold.result_eq m ρ c), (h c).2⟩)
      (Cert.KernelIdeal.Whole.run_last (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Spec.res_eq]
    obtain ⟨e0, e1, e2, e3, e4, e5, e6, e7, e8⟩ := hagree c
    rw [e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
